-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x320000 : Shape := ⟨2, ![2, 320000]⟩
abbrev S256x1024 : Shape := ⟨2, ![256, 1024]⟩
abbrev S1024 : Shape := ⟨1, ![1024]⟩
abbrev S1024x256 : Shape := ⟨2, ![1024, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S1024 .f32) (main_arg6 : FVec F S1024x256 .f32) (main_arg7 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x256 .f32 := Host.absf main_arg6
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S100000x256 .f32) (main_arg1 : IVec S2x320000 32) (main_arg2 : FVec F S256x1024 .f32) (main_arg3 : FVec F S1024 .f32) (main_arg4 : FVec F S1024 .f32) (main_arg5 : FVec F S1024 .f32) (main_arg6 : FVec F S1024x256 .f32) (main_arg7 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x1024 .f32 := Host.absf main_arg2
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_v13 main_v16
-- ==== Kernel.lean ====
abbrev S100000x256 : Shape := ⟨2, ![100000, 256]⟩
abbrev S2x320000 : Shape := ⟨2, ![2, 320000]⟩
abbrev S256x1024 : Shape := ⟨2, ![256, 1024]⟩
abbrev S1024 : Shape := ⟨1, ![1024]⟩
abbrev S1024x256 : Shape := ⟨2, ![1024, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1x1024 : Shape := ⟨2, ![1, 1024]⟩
abbrev S1x256 : Shape := ⟨2, ![1, 256]⟩
abbrev S2000x256 : Shape := ⟨2, ![2000, 256]⟩
abbrev S2000x1024 : Shape := ⟨2, ![2000, 1024]⟩

abbrev nBuf : Space → Nat
  | .hbm => 49
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S2x320000, .i32⟩
  | .hbm, ⟨2, _⟩ => ⟨S256x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S_, .f32⟩
  | .hbm, ⟨22, _⟩ => ⟨S100000x256, .f32⟩
  | .hbm, ⟨23, _⟩ => ⟨S320000x1, .i32⟩
  | .hbm, ⟨24, _⟩ => ⟨S100000x256, .f32⟩
  | .hbm, ⟨25, _⟩ => ⟨S256x1024, .bf16⟩
  | .hbm, ⟨26, _⟩ => ⟨S1024x256, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x256, .f32⟩
  | .hbm, ⟨31, _⟩ => ⟨S1x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x256, .bf16⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S100000x256 : S_.BroadcastsInDim S100000x256 (![] : Fin 0 → Fin S100000x256.rank)
  bitsLt_bf16_f32 : FTy.bits .bf16 < FTy.bits .f32
  shapeCasts_S1024_S1x1024 : S1024.ShapeCasts S1x1024
  shapeCasts_S256_S1x256 : S256.ShapeCasts S1x256
  inb_S1x1024_S1x1024_0_0 : ∀ a, (![0, 0] : Fin 2 → Nat) a + S1x1024.size a ≤ S1x1024.size a
  h_S1x1024 : 0 < S1x1024.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S1x1024_S1x1024 : S1x1024.ShapeCasts S1x1024
  broadcasts_S1x1024_S2000x1024 : S1x1024.Broadcasts S2000x1024
  reduces_S2000x1024_S1024 : S2000x1024.Reduces [0] S1024
  bcast_S_S1x1024 : S_.BroadcastsInDim S1x1024 (![] : Fin 0 → Fin S1x1024.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S2000x256_S256x1024_S2000x1024_1_0_0_1_n_n_wf : DotDims.WF S2000x256 S256x1024 S2000x1024 [1] [0] [0] [1] [] []
  dot_S2000x1024_S1024x256_S2000x256_1_0_0_1_n_n_wf : DotDims.WF S2000x1024 S1024x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x1024.size a
  hwx1_2 : ∀ i : grid1.Coords, EltTy.bits .bf16 = 32 ∨ (Rect.block (s := S256x1024) S256x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1024x256.size a ≤ S1024x256.size a
  hwx1_8 : ∀ i : grid1.Coords, EltTy.bits .bf16 = 32 ∨ (Rect.block (s := S1024x256) S1024x256.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x256.size a ≤ S100000x256.size a
  hwx1_10 : ∀ i : grid1.Coords, EltTy.bits .f32 = 32 ∨ (Rect.block (s := S100000x256) S2000x256.size (cc1_transform_10 i) (hinb1_10 i)).WholeWords (EltTy.packing .f32)

variable [Facts₀]

def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S2000x256_S256x1024_S2000x1024_1_0_0_1_n_n : DotDims S2000x256 S256x1024 S2000x1024 where
  lhsContracting := [1]
  rhsContracting := [0]
  lhsNonContracting := [0]
  rhsNonContracting := [1]
  lhsBatch := []
  rhsBatch := []
  wf := dot_S2000x256_S256x1024_S2000x1024_1_0_0_1_n_n_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf

abbrev win0_0 : Pipeline.Window sig grid0 :=
  Pipeline.Window.ofSpec (Memref.whole main_v13) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20_0) S1x1024.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_1) S1x1024.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S256x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S1024x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v32) S2000x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x320000 : Shape := ⟨2, ![2, 320000]⟩
abbrev S256x1024 : Shape := ⟨2, ![256, 1024]⟩
abbrev S1024 : Shape := ⟨1, ![1024]⟩
abbrev S1024x256 : Shape := ⟨2, ![1024, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S100000x1024 : Shape := ⟨2, ![100000, 1024]⟩
abbrev S1x1024 : Shape := ⟨2, ![1, 1024]⟩
abbrev S1x256 : Shape := ⟨2, ![1, 256]⟩

abbrev nBuf : Space → Nat
  | .hbm => 70
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x320000, .i32⟩
  | .hbm, ⟨2, _⟩ => ⟨S256x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S_, .f32⟩
  | .hbm, ⟨22, _⟩ => ⟨S100000x256, .f32⟩
  | .hbm, ⟨23, _⟩ => ⟨S320000x1, .i32⟩
  | .hbm, ⟨24, _⟩ => ⟨S100000x256, .f32⟩
  | .hbm, ⟨25, _⟩ => ⟨S100000x256, .f32⟩
  | .hbm, ⟨26, _⟩ => ⟨S100000x1024, .f32⟩
  | .hbm, ⟨27, _⟩ => ⟨S1x1024, .f32⟩
  | .hbm, ⟨28, _⟩ => ⟨S100000x1024, .f32⟩
  | .hbm, ⟨29, _⟩ => ⟨S100000x1024, .f32⟩
  | .hbm, ⟨30, _⟩ => ⟨S_, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S100000x1024, .f32⟩
  | .hbm, ⟨37, _⟩ => ⟨S100000x1024, .f32⟩
  | .hbm, ⟨38, _⟩ => ⟨S100000x1024, .f32⟩
  | .hbm, ⟨39, _⟩ => ⟨S_, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1x1024, .f32⟩
  | .hbm, ⟨45, _⟩ => ⟨S100000x1024, .f32⟩
  | .hbm, ⟨46, _⟩ => ⟨S100000x1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1x1024, .f32⟩
  | .hbm, ⟨52, _⟩ => ⟨S100000x1024, .f32⟩
  | .hbm, ⟨53, _⟩ => ⟨S100000x1024, .f32⟩
  | .hbm, ⟨54, _⟩ => ⟨S1x1024, .f32⟩
  | .hbm, ⟨55, _⟩ => ⟨S100000x1024, .f32⟩
  | .hbm, ⟨56, _⟩ => ⟨S100000x1024, .f32⟩
  | .hbm, ⟨57, _⟩ => ⟨S1x1024, .f32⟩
  | .hbm, ⟨58, _⟩ => ⟨S100000x1024, .f32⟩
  | .hbm, ⟨59, _⟩ => ⟨S100000x1024, .f32⟩
  | .hbm, ⟨60, _⟩ => ⟨S_, .f32⟩
  | .hbm, ⟨61, _⟩ => ⟨S100000x1024, .f32⟩
  | .hbm, ⟨62, _⟩ => ⟨S100000x1024, .f32⟩
  | .hbm, ⟨63, _⟩ => ⟨S100000x256, .f32⟩
  | .hbm, ⟨64, _⟩ => ⟨S1x256, .f32⟩
  | .hbm, ⟨65, _⟩ => ⟨S100000x256, .f32⟩
  | .hbm, ⟨66, _⟩ => ⟨S100000x256, .f32⟩
  | .hbm, ⟨67, _⟩ => ⟨S_, .f32⟩
  | .hbm, ⟨68, _⟩ => ⟨S100000x256, .f32⟩
  | .hbm, ⟨69, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S100000x256 : S_.BroadcastsInDim S100000x256 (![] : Fin 0 → Fin S100000x256.rank)
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  reducesTo_S100000x1024_S1024_d0 : S100000x1024.ReducesTo [0] S1024
  h_S_ : 0 < S_.numel
  bcast_S_S1024 : S_.BroadcastsInDim S1024 (![] : Fin 0 → Fin S1024.rank)
  bcast_S_S100000x1024 : S_.BroadcastsInDim S100000x1024 (![] : Fin 0 → Fin S100000x1024.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S100000x256_S256x1024_S100000x1024_1_0_0_1_n_n_wf : DotDims.WF S100000x256 S256x1024 S100000x1024 [1] [0] [0] [1] [] []
  dot_S100000x1024_S1024x256_S100000x256_1_0_0_1_n_n_wf : DotDims.WF S100000x1024 S1024x256 S100000x256 [1] [0] [0] [1] [] []

variable [Facts₀]

def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S100000x256_S256x1024_S100000x1024_1_0_0_1_n_n : DotDims S100000x256 S256x1024 S100000x1024 where
  lhsContracting := [1]
  rhsContracting := [0]
  lhsNonContracting := [0]
  rhsNonContracting := [1]
  lhsBatch := []
  rhsBatch := []
  wf := dot_S100000x256_S256x1024_S100000x1024_1_0_0_1_n_n_wf
def dot_S100000x1024_S1024x256_S100000x256_1_0_0_1_n_n : DotDims S100000x1024 S1024x256 S100000x256 where
  lhsContracting := [1]
  rhsContracting := [0]
  lhsNonContracting := [0]
  rhsNonContracting := [1]
  lhsBatch := []
  rhsBatch := []
  wf := dot_S100000x1024_S1024x256_S100000x256_1_0_0_1_n_n_wf

class Facts : Prop extends Facts₀ where

variable [Facts]
-- ==== Proof.KernelRun.lean ====
/-
  The idealized kernel's run with its result named.

  The program is four stretches: host operations (the neighbour sums, the weights' change of format, the biases as
  one-row matrices), the first grid (column sums and column sums of squares of the hidden values, accumulated over
  fifty row tiles), host operations (mean, variance, inverse standard deviation), and the second grid (the
  normalised hidden values through the second layer, tile by tile).  Every weakly fair execution ends, nothing
  faulting, with the argument arrays as launched and the result array holding what the second grid's write-backs
  leave: the contents `Gen.W4` of the last boundary, read at the result's buffer.
-/
import proofs.«110771_j50397146251358_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents and the eight argument arrays end as launched. -/
theorem run : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.Tile.lean ====
/-
  One row tile of the two grids, read at an entry, over the extended reals.

  Both grids cut the 100000 rows into 50 tiles of 2000.  On a tile with neighbour sums `a` and features `x` (both
  2000 × 256), first weights `w1` (256 × 1024) and first bias `b1` (1 × 1024) the hidden values are
  `Σₖ (a[p,k] + x[p,k]) · w1[k,q] + b1[0,q]`.  The first grid adds to its two running rows the column sums of the
  hidden values and of their squares over the tile's 2000 rows.  The second grid normalises the hidden values with
  the finished mean and scale, scales by `gm`, shifts by `bt`, clips at zero, multiplies by the second weights
  (1024 × 256), adds the second bias and clips again.  A change of float format is the identity here, the matrix
  products are plain sums into a zero accumulator, and the lane reduction over the rows is a plain sum.
-/
import proofs.«110771_j50397146251358_2_alg».proof.Proof.Gen.KernelIdeal.Skeleton
import proofs.«110771_j50397146251358_2_alg».proof.Proof.LibMatDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The first product's dimension numbers: [2000, 256] × [256, 1024]. -/
abbrev d1 : DotDims S2000x256 S256x1024 S2000x1024 := dot_S2000x256_S256x1024_S2000x1024_1_0_0_1_n_n
/-- The second product's dimension numbers: [2000, 1024] × [1024, 256]. -/
abbrev d2 : DotDims S2000x1024 S1024x256 S2000x256 := dot_S2000x1024_S1024x256_S2000x256_1_0_0_1_n_n

theorem d1_l0 (j : S2000x1024.Idx) (q : d1.contr.Idx) : (d1.lhsIdx j q 0).val = (j 0).val := by
  unfold DotDims.lhsIdx
  rw [dif_neg (show ¬(0 : Fin S2000x256.rank) ∈ d1.lhsBatch by decide), dif_pos (show (0 : Fin S2000x256.rank) ∈ d1.lhsNonContracting by decide)]
  rfl
theorem d1_l1 (j : S2000x1024.Idx) (q : d1.contr.Idx) : (d1.lhsIdx j q 1).val = (q ⟨0, by decide⟩).val :=
  d1.lhsIdx_val_of_single rfl j q
theorem d1_r0 (j : S2000x1024.Idx) (q : d1.contr.Idx) : (d1.rhsIdx j q 0).val = (q ⟨0, by decide⟩).val :=
  d1.rhsIdx_val_of_single rfl j q
theorem d1_r1 (j : S2000x1024.Idx) (q : d1.contr.Idx) : (d1.rhsIdx j q 1).val = (j 1).val := by
  unfold DotDims.rhsIdx
  rw [dif_neg (show ¬(1 : Fin S256x1024.rank) ∈ d1.rhsBatch by decide), dif_pos (show (1 : Fin S256x1024.rank) ∈ d1.rhsNonContracting by decide)]
  rfl

theorem d2_l0 (j : S2000x256.Idx) (q : d2.contr.Idx) : (d2.lhsIdx j q 0).val = (j 0).val := by
  unfold DotDims.lhsIdx
  rw [dif_neg (show ¬(0 : Fin S2000x1024.rank) ∈ d2.lhsBatch by decide), dif_pos (show (0 : Fin S2000x1024.rank) ∈ d2.lhsNonContracting by decide)]
  rfl
theorem d2_l1 (j : S2000x256.Idx) (q : d2.contr.Idx) : (d2.lhsIdx j q 1).val = (q ⟨0, by decide⟩).val :=
  d2.lhsIdx_val_of_single rfl j q
theorem d2_r0 (j : S2000x256.Idx) (q : d2.contr.Idx) : (d2.rhsIdx j q 0).val = (q ⟨0, by decide⟩).val :=
  d2.rhsIdx_val_of_single rfl j q
theorem d2_r1 (j : S2000x256.Idx) (q : d2.contr.Idx) : (d2.rhsIdx j q 1).val = (j 1).val := by
  unfold DotDims.rhsIdx
  rw [dif_neg (show ¬(1 : Fin S1024x256.rank) ∈ d2.rhsBatch by decide), dif_pos (show (1 : Fin S1024x256.rank) ∈ d2.rhsNonContracting by decide)]
  rfl

/-- The hidden value of row `p` of a tile at column `q`. -/
def hidTile (a x : Vec Ideal S2000x256 .f32) (w1 : Vec Ideal S256x1024 .bf16) (b1 : Vec Ideal S1x1024 .f32)
    (p : Fin 2000) (q : Fin 1024) : EReal :=
  (∑ k : Fin 256, (a (ix2 p k) + x (ix2 p k)) * w1 (ix2 k q)) + b1 (ix2 (0 : Fin 1) q)

/-- The tile's hidden values as the body computes them, at an entry. -/
theorem pay3_apply (a x : Vec Ideal S2000x256 .f32) (w1 : Vec Ideal S256x1024 .bf16) (b1 : Vec Ideal S1x1024 .f32)
    (p : Fin 2000) (q : Fin 1024) :
    k0_pay3 (F := Ideal) a x w1 b1 (ix2 p q) = hidTile a x w1 b1 p q := by
  unfold k0_pay3 hidTile
  simp only [shapeCast_self]
  refine (addf_apply _ _ _).trans ?_
  rw [broadcastTo_1b_ab_apply]
  exact congrArg (· + _) (mat_dot_zero d1 none rfl rfl d1_l0 d1_l1 d1_r0 d1_r1 _ _ p q)

/-- A lane sum over the 2000 rows of a tile, into a row of 1024: at column `q` the sum over the rows. -/
theorem colsum_apply (src : FVec Ideal S2000x1024 .f32) (hφ : FKind.Formats .f32)
    (hacc : (0x00000000#32 : BitVec 32) = FKind.add.neutral .f32 hφ) (q : Fin 1024) :
    multiReduction .add [0] S1024 src 0x00000000#32 reduces_S2000x1024_S1024 hφ hacc (ix1 q)
      = ∑ p : Fin 2000, src (ix2 p q) := by
  refine (Ideal.multiReduction_add_single src 0x00000000#32 reduces_S2000x1024_S1024 hφ hacc (ix1 q)).trans ?_
  refine Finset.sum_congr rfl fun p _ => congrArg src (funext fun ax => Fin.ext ?_)
  match ax with
  | ⟨0, _⟩ => rfl
  | ⟨1, _⟩ => rfl

/-- The first running row after a tile: what it held plus the column sums of the tile's hidden values. -/
theorem pay4_apply (a x : Vec Ideal S2000x256 .f32) (w1 : Vec Ideal S256x1024 .bf16) (b1 acc : Vec Ideal S1x1024 .f32)
    (q : Fin 1024) :
    k0_pay4 (F := Ideal) a x w1 b1 acc (ix2 (0 : Fin 1) q)
      = acc (ix2 (0 : Fin 1) q) + ∑ p : Fin 2000, hidTile a x w1 b1 p q := by
  unfold k0_pay4
  simp only [shapeCast_self]
  refine (addf_apply _ _ _).trans ?_
  refine congrArg (_ + ·) ?_
  refine (shapeCast_a_1a_apply _ _ (0 : Fin 1) q).trans ?_
  refine (colsum_apply _ _ _ q).trans ?_
  exact Finset.sum_congr rfl fun p _ => pay3_apply a x w1 b1 p q

/-- The second running row after a tile: what it held plus the column sums of the squared hidden values. -/
theorem pay5_apply (a x : Vec Ideal S2000x256 .f32) (w1 : Vec Ideal S256x1024 .bf16) (b1 acc : Vec Ideal S1x1024 .f32)
    (q : Fin 1024) :
    k0_pay5 (F := Ideal) a x w1 b1 acc (ix2 (0 : Fin 1) q)
      = acc (ix2 (0 : Fin 1) q) + ∑ p : Fin 2000, hidTile a x w1 b1 p q * hidTile a x w1 b1 p q := by
  unfold k0_pay5
  simp only [shapeCast_self]
  refine (addf_apply _ _ _).trans ?_
  refine congrArg (_ + ·) ?_
  refine (shapeCast_a_1a_apply _ _ (0 : Fin 1) q).trans ?_
  refine (colsum_apply _ _ _ q).trans ?_
  exact Finset.sum_congr rfl fun p _ => by rw [mulf_apply, pay3_apply]

/-- The normalised, scaled, shifted and clipped hidden value of row `p` of a tile at column `j`. -/
def actTile (a x : Vec Ideal S2000x256 .f32) (w1 : Vec Ideal S256x1024 .bf16) (b1 mu sc gm bt : Vec Ideal S1x1024 .f32)
    (p : Fin 2000) (j : Fin 1024) : EReal :=
  max ((hidTile a x w1 b1 p j - mu (ix2 (0 : Fin 1) j)) * sc (ix2 (0 : Fin 1) j) * gm (ix2 (0 : Fin 1) j)
    + bt (ix2 (0 : Fin 1) j)) 0

/-- The second grid's result on a tile at row `p`, column `c`. -/
def outTile (a x : Vec Ideal S2000x256 .f32) (w1 : Vec Ideal S256x1024 .bf16) (b1 mu sc gm bt : Vec Ideal S1x1024 .f32)
    (w2 : Vec Ideal S1024x256 .bf16) (b2 : Vec Ideal S1x256 .f32) (p : Fin 2000) (c : Fin 256) : EReal :=
  max ((∑ j : Fin 1024, actTile a x w1 b1 mu sc gm bt p j * w2 (ix2 j c)) + b2 (ix2 (0 : Fin 1) c)) 0

/-- The second grid's body on a tile, at an entry. -/
theorem out_apply (a x : Vec Ideal S2000x256 .f32) (w1 : Vec Ideal S256x1024 .bf16) (b1 mu sc gm bt : Vec Ideal S1x1024 .f32)
    (w2 : Vec Ideal S1024x256 .bf16) (b2 : Vec Ideal S1x256 .f32) (p : Fin 2000) (c : Fin 256) :
    k1_pay1 (F := Ideal) (k1_pay2 a x w1 b1 mu sc gm bt w2) (k1_pay3 b2) (ix2 p c)
      = outTile a x w1 b1 mu sc gm bt w2 b2 p c := by
  unfold k1_pay1 k1_pay2 k1_pay3 outTile
  simp only [shapeCast_self]
  refine (maximumf_apply _ _ _).trans ?_
  rw [broadcast_apply, addf_apply, broadcastTo_1b_ab_apply]
  show max (_ + _) (Ideal.ofBits .f32 0x00000000#32) = _
  rw [Ideal.ofBits_zero_f32]
  refine congrArg (fun z => max (z + _) 0) ?_
  refine (mat_dot_zero (φ₁ := .bf16) (φ₂ := .bf16) d2 none rfl rfl d2_l0 d2_l1 d2_r0 d2_r1 _ _ p c).trans ?_
  refine Finset.sum_congr rfl fun j _ => congrArg (· * _) ?_
  unfold actTile hidTile
  refine (maximumf_apply _ _ _).trans ?_
  rw [broadcast_apply]
  show max _ (Ideal.ofBits .f32 0x00000000#32) = _
  rw [Ideal.ofBits_zero_f32]
  refine congrArg (fun z => max z 0) ?_
  rw [addf_apply, mulf_apply, mulf_apply, subf_apply, addf_apply, broadcastTo_1b_ab_apply, broadcastTo_1b_ab_apply,
    broadcastTo_1b_ab_apply, broadcastTo_1b_ab_apply, broadcastTo_1b_ab_apply]
  exact congrArg (fun z => (z + _ - _) * _ * _ + _) (mat_dot_zero (φ₁ := .bf16) (φ₂ := .bf16) d1 none rfl rfl d1_l0 d1_l1 d1_r0 d1_r1 _ _ p j)

end Cert.KernelIdeal.Tile

end
-- ==== Proof.Stats.lean ====
/-
  The first grid: the column sums of the hidden values and of their squares, accumulated over the fifty row tiles.

  The two output rows are reset to zero at the first tile and added into at every tile; their block never moves,
  so after tile `n` they hold the zero row plus the column sums of tiles 0 … n, and the one write-back, after the
  last tile, puts `Σ over all 100000 rows` into the two result arrays.
-/
import proofs.«110771_j50397146251358_2_alg».proof.Proof.Gen.KernelIdeal.Frame
import proofs.«110771_j50397146251358_2_alg».proof.Proof.Tile
import Idealize.ShloMosaic.Lib.Pipeline.Value
import Idealize.ShloMosaic.Lib.Tactic

set_option maxRecDepth 16384

noncomputable section

open scoped BigOperators

namespace Cert.KernelIdeal.Stats

open Cert.KernelIdeal Cert.KernelIdeal.Gen Cert.KernelIdeal.Tile
open Idealize.ShloMosaic Idealize.ShloMosaic.TcCoe Idealize.ShloMosaic.ValueIdx Idealize.SL.Sem
open Idealize.ShloMosaic.Pipeline (Dat)

variable {F : FTy → Type} [FloatOps F]

theorem hz : (![0, 0] : Fin 2 → Nat) = fun _ => 0 := funext fun a => by fin_cases a <;> rfl

/-- Away from the first tile the body leaves, in the first running row holding `xo4`, that row plus the tile's
    column sums: its one covering store's payload, whose loads read the whole buffers. -/
theorem out_B_4 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i)
    (x0 : Vec F S2000x256 .f32) (x1 : Vec F S2000x256 .f32) (x2 : Vec F S256x1024 .bf16) (x3 : Vec F S1x1024 .f32) (xo4 xo5 : Vec F S1x1024 .f32) :
    out0_B_4 c i arg1 harg1 arg2 harg2 arg3 harg3 arg4 harg4 arg5 harg5 arg6 harg6 hc0 x0 x1 x2 x3 xo4 xo5 = k0_pay4 x0 x1 x2 x3 xo4 := by
  unfold out0_B_4
  rw [View.read_writes_eq_canon _ _ _ (cover0_B_4 c i arg1 harg1 arg2 harg2 arg3 harg3 arg4 harg4 arg5 harg5 arg6 harg6 hc0 x0 x1 x2 x3 xo4 xo5)]
  unfold kernelRun0_B
  dsimp only
  rw [View.canon_unit_zero hz]
  simp only [View.readAt_eq_ld, harg1.read_unread, harg2.read_unread, harg3.read_unread, harg4.read_unread,
    harg5.read_unread, harg6.read_unread, View.ld_unit_zero (S := S2000x256) hz, View.ld_unit_zero (S := S256x1024) hz,
    View.ld_unit_zero (S := S1x1024) hz]

/-- Likewise the second running row: what it held plus the column sums of the squares. -/
theorem out_B_5 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i)
    (x0 : Vec F S2000x256 .f32) (x1 : Vec F S2000x256 .f32) (x2 : Vec F S256x1024 .bf16) (x3 : Vec F S1x1024 .f32) (xo4 xo5 : Vec F S1x1024 .f32) :
    out0_B_5 c i arg1 harg1 arg2 harg2 arg3 harg3 arg4 harg4 arg5 harg5 arg6 harg6 hc0 x0 x1 x2 x3 xo4 xo5 = k0_pay5 x0 x1 x2 x3 xo5 := by
  unfold out0_B_5
  rw [View.read_writes_eq_canon _ _ _ (cover0_B_5 c i arg1 harg1 arg2 harg2 arg3 harg3 arg4 harg4 arg5 harg5 arg6 harg6 hc0 x0 x1 x2 x3 xo4 xo5)]
  unfold kernelRun0_B
  dsimp only
  rw [View.canon_unit_zero hz]
  simp only [View.readAt_eq_ld, harg1.read_unread, harg2.read_unread, harg3.read_unread, harg4.read_unread,
    harg5.read_unread, harg6.read_unread, View.ld_unit_zero (S := S2000x256) hz, View.ld_unit_zero (S := S256x1024) hz,
    View.ld_unit_zero (S := S1x1024) hz]

/-- At the first tile the body stores the zero row, reads it back and leaves zero plus the tile's column sums. -/
theorem out_A_4 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : cond0_0 i)
    (x0 : Vec F S2000x256 .f32) (x1 : Vec F S2000x256 .f32) (x2 : Vec F S256x1024 .bf16) (x3 : Vec F S1x1024 .f32) :
    out0_A_4 c i arg1 harg1 arg2 harg2 arg3 harg3 arg4 harg4 arg5 harg5 arg6 harg6 hc0 x0 x1 x2 x3 = k0_pay4 x0 x1 x2 x3 k0_pay1 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread,
    View.ld_unit_zero (S := S2000x256) hz, View.ld_unit_zero (S := S256x1024) hz, View.ld_unit_zero (S := S1x1024) hz]

/-- Likewise the second running row at the first tile. -/
theorem out_A_5 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : cond0_0 i)
    (x0 : Vec F S2000x256 .f32) (x1 : Vec F S2000x256 .f32) (x2 : Vec F S256x1024 .bf16) (x3 : Vec F S1x1024 .f32) :
    out0_A_5 c i arg1 harg1 arg2 harg2 arg3 harg3 arg4 harg4 arg5 harg5 arg6 harg6 hc0 x0 x1 x2 x3 = k0_pay5 x0 x1 x2 x3 k0_pay2 := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread,
    View.ld_unit_zero (S := S2000x256) hz, View.ld_unit_zero (S := S256x1024) hz, View.ld_unit_zero (S := S1x1024) hz]

/-! ## The running rows after tile `n` -/

section Sums

variable (V : (c : Dev nD) → (b : Ref sig .tc) → Buf (Elt Ideal) ((c : Thread nD τ).loc b))

/-- The column sum, at column `q`, of the hidden values of tile `t`. -/
def tileSum (c : Dev nD) (t : Fin cfg0.N) (q : Fin 1024) : EReal :=
  ∑ p : Fin 2000, hidTile (iblk0 V c 0 t) (iblk0 V c 1 t) (iblk0 V c 2 t) (iblk0 V c 3 t) p q

/-- The column sum, at column `q`, of the squared hidden values of tile `t`. -/
def tileSq (c : Dev nD) (t : Fin cfg0.N) (q : Fin 1024) : EReal :=
  ∑ p : Fin 2000, hidTile (iblk0 V c 0 t) (iblk0 V c 1 t) (iblk0 V c 2 t) (iblk0 V c 3 t) p q
    * hidTile (iblk0 V c 0 t) (iblk0 V c 1 t) (iblk0 V c 2 t) (iblk0 V c 3 t) p q

theorem zero_row (u : Fin 1) (q : Fin 1024) : (k0_pay1 (F := Ideal)) (ix2 u q) = 0 := Ideal.ofBits_zero_f32
theorem zero_row' (u : Fin 1) (q : Fin 1024) : (k0_pay2 (F := Ideal)) (ix2 u q) = 0 := Ideal.ofBits_zero_f32

/-- After tile `n` the first running row holds, at column `q`, the column sums of tiles 0 … n. -/
theorem sums_upto (c : Dev nD) (q : Fin 1024) : ∀ (n : ℕ) (h : n < cfg0.N),
    (outsAt0 V c n h).1 (ix2 (0 : Fin 1) q)
      = ∑ t ∈ Finset.range (n + 1), (if ht : t < cfg0.N then tileSum V c ⟨t, ht⟩ q else 0)
  | 0, h => by
    rw [outsAt0_A V c ⟨0, h⟩ rfl]
    dsimp only
    rw [out_A_4, pay4_apply, zero_row, zero_add, Finset.sum_range_one, dif_pos h]
    rfl
  | n + 1, h => by
    have hN : cfg0.N = 50 := N_0
    have hB : ¬(⟨n + 1, h⟩ : Fin cfg0.N).val % 50 = 0 := by dsimp only; omega
    rw [outsAt0_B V c ⟨n + 1, h⟩ hB]
    dsimp only
    rw [out_B_4, pay4_apply, Finset.sum_range_succ, dif_pos h]
    refine congrArg₂ (· + ·) ?_ rfl
    exact sums_upto c q n (Nat.lt_of_succ_lt h)

/-- After tile `n` the second running row holds, at column `q`, the column sums of squares of tiles 0 … n. -/
theorem sqs_upto (c : Dev nD) (q : Fin 1024) : ∀ (n : ℕ) (h : n < cfg0.N),
    (outsAt0 V c n h).2 (ix2 (0 : Fin 1) q)
      = ∑ t ∈ Finset.range (n + 1), (if ht : t < cfg0.N then tileSq V c ⟨t, ht⟩ q else 0)
  | 0, h => by
    rw [outsAt0_A V c ⟨0, h⟩ rfl]
    dsimp only
    rw [out_A_5, pay5_apply, zero_row', zero_add, Finset.sum_range_one, dif_pos h]
    rfl
  | n + 1, h => by
    have hN : cfg0.N = 50 := N_0
    have hB : ¬(⟨n + 1, h⟩ : Fin cfg0.N).val % 50 = 0 := by dsimp only; omega
    rw [outsAt0_B V c ⟨n + 1, h⟩ hB]
    dsimp only
    rw [out_B_5, pay5_apply, Finset.sum_range_succ, dif_pos h]
    refine congrArg₂ (· + ·) ?_ rfl
    exact sqs_upto c q n (Nat.lt_of_succ_lt h)

end Sums

/-! ## The two result arrays of the first grid -/

section Final

variable (V : (c : Dev nD) → (b : Ref sig .tc) → Buf (Elt Ideal) ((c : Thread nD τ).loc b))

/-- The column sums of the hidden values over all fifty tiles, as the [1, 1024] result array. -/
def colSums (c : Dev nD) : S1x1024.Idx → EReal :=
  fun i => ∑ t : Fin cfg0.N, tileSum V c t (i 1)

/-- The column sums of the squared hidden values over all fifty tiles, as the [1, 1024] result array. -/
def colSqs (c : Dev nD) : S1x1024.Idx → EReal :=
  fun i => ∑ t : Fin cfg0.N, tileSq V c t (i 1)

theorem last_lt : 49 < cfg0.N := by rw [show cfg0.N = 50 from N_0]; decide

/-- The last tile. -/
abbrev tLast : Fin cfg0.N := ⟨49, last_lt⟩

/-- A running sum over the tiles below `n`, written over all naturals, is the sum over the tiles. -/
theorem sum_range_tiles (g : Fin cfg0.N → EReal) :
    ∑ t ∈ Finset.range (49 + 1), (if ht : t < cfg0.N then g ⟨t, ht⟩ else 0) = ∑ t : Fin cfg0.N, g t := by
  rw [show (49 + 1 : ℕ) = cfg0.N from (show cfg0.N = 50 from N_0).symm, Finset.sum_range]
  exact Finset.sum_congr rfl fun t _ => dif_pos t.isLt

theorem sums_last (c : Dev nD) : (outsAt0 V c 49 last_lt).1 = colSums V c := by
  funext i
  obtain ⟨u, q, rfl⟩ : ∃ (u : Fin 1) (q : Fin 1024), i = ix2 u q := ⟨i 0, i 1, eq_ix2 i⟩
  obtain rfl : u = 0 := Subsingleton.elim _ _
  rw [sums_upto V c q 49 last_lt]
  exact sum_range_tiles (fun t => tileSum V c t q)

theorem sqs_last (c : Dev nD) : (outsAt0 V c 49 last_lt).2 = colSqs V c := by
  funext i
  obtain ⟨u, q, rfl⟩ : ∃ (u : Fin 1) (q : Fin 1024), i = ix2 u q := ⟨i 0, i 1, eq_ix2 i⟩
  obtain rfl : u = 0 := Subsingleton.elim _ _
  rw [sqs_upto V c q 49 last_lt]
  exact sum_range_tiles (fun t => tileSq V c t q)

/-- The one write-back of output 4, after the last tile, writes the finished row: block (0, 0) of the [1, 1024]
    array read through zero offsets is the array. -/
theorem flushed4_eq (c : Dev nD) (t : Fin cfg0.N) (hf : (cfg0.win 4).flush t = true) :
    (dat0 V c).flushed 4 t = ((cfg0.win 4).blk t).view.read (Elt Ideal) (colSums V c) := by
  have hN : cfg0.N = 50 := N_0
  have h49 : t.val = 49 := by have := (flush0_4 t).mp hf; have := t.isLt; omega
  obtain rfl : t = tLast := Fin.ext h49
  show (cfg0.win 4).cut (grid0.coords tLast) ((dat0 V c).after 4 tLast) = _
  rw [after0_4, sums_last]
  have hz' : (fun a => win0_4.index tLast a * main_v20_0.ty.shape.size a) = fun _ => 0 := funext fun a => by fin_cases a <;> decide +kernel
  exact (Memref.read_access_unit_zero (Elt Ideal) main_v20_0 hz' (fun a => by rw [congrFun hz' a]; simp) (colSums V c)).symm

/-- So the array of output 4 ends holding the finished row: the last tile's write-back covers it. -/
theorem final4 (c : Dev nD) : (dat0 V c).arrAt 4 cfg0.N = colSums V c :=
  (dat0 V c).arrAt_eq_of_cover 4 (colSums V c) (flushed4_eq V c) fun i =>
    ⟨tLast, (flush0_4 tLast).mpr rfl, by
      show i ∈ ((View.whole main_v20_0).slice (win0_4.rect tLast)).set
      rw [View.set_slice_whole, Rect.mem_set_unit]
      intro a
      have h0 : (i 0 : Nat) < 1 := (i 0).isLt
      have h1 : (i 1 : Nat) < 1024 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1024 from by decide +kernel]; omega⟩

/-- The one write-back of output 5, after the last tile, writes the finished row: block (0, 0) of the [1, 1024]
    array read through zero offsets is the array. -/
theorem flushed5_eq (c : Dev nD) (t : Fin cfg0.N) (hf : (cfg0.win 5).flush t = true) :
    (dat0 V c).flushed 5 t = ((cfg0.win 5).blk t).view.read (Elt Ideal) (colSqs V c) := by
  have hN : cfg0.N = 50 := N_0
  have h49 : t.val = 49 := by have := (flush0_5 t).mp hf; have := t.isLt; omega
  obtain rfl : t = tLast := Fin.ext h49
  show (cfg0.win 5).cut (grid0.coords tLast) ((dat0 V c).after 5 tLast) = _
  rw [after0_5, sqs_last]
  have hz' : (fun a => win0_5.index tLast a * main_v20_1.ty.shape.size a) = fun _ => 0 := funext fun a => by fin_cases a <;> decide +kernel
  exact (Memref.read_access_unit_zero (Elt Ideal) main_v20_1 hz' (fun a => by rw [congrFun hz' a]; simp) (colSqs V c)).symm

/-- So the array of output 5 ends holding the finished row: the last tile's write-back covers it. -/
theorem final5 (c : Dev nD) : (dat0 V c).arrAt 5 cfg0.N = colSqs V c :=
  (dat0 V c).arrAt_eq_of_cover 5 (colSqs V c) (flushed5_eq V c) fun i =>
    ⟨tLast, (flush0_5 tLast).mpr rfl, by
      show i ∈ ((View.whole main_v20_1).slice (win0_5.rect tLast)).set
      rw [View.set_slice_whole, Rect.mem_set_unit]
      intro a
      have h0 : (i 0 : Nat) < 1 := (i 0).isLt
      have h1 : (i 1 : Nat) < 1024 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1024 from by decide +kernel]; omega⟩

end Final

end Cert.KernelIdeal.Stats

end
-- ==== Proof.RowTiles.lean ====
/-
  Summing over the 100000 rows is summing tile by tile: the rows split into 50 consecutive tiles of 2000, row `p` of
  tile `t` being row `2000 · t + p` of the whole.  The pairs `(t, p)` correspond one to one to the rows (the
  correspondence is division with remainder by 2000), so a sum over the rows can be taken as the sum over the tiles of
  the sums inside each tile.  Also: a sum over `t < n` of a function given on `Fin n` (and extended by zero) is the sum
  over `Fin n`.
-/
import Mathlib.Algebra.BigOperators.Fin
import Mathlib.Data.Fintype.BigOperators
import Mathlib.Logic.Equiv.Fin.Basic

open scoped BigOperators

namespace Cert.RowTiles

/-- Row `p` of tile `t`, as a row of the whole array. -/
def row (t : Fin 50) (p : Fin 2000) : Fin 100000 :=
  ⟨2000 * t.val + p.val, by have := t.isLt; have := p.isLt; omega⟩

/-- The pairs (tile, row inside the tile) correspond one to one to the rows: `(t, p) ↦ p + 2000 · t`. -/
def tileEquiv : Fin 50 × Fin 2000 ≃ Fin 100000 :=
  finProdFinEquiv.trans (finCongr (show 50 * 2000 = 100000 from rfl))

/-- The correspondence sends `(t, p)` to row `p` of tile `t`. -/
theorem tileEquiv_apply (x : Fin 50 × Fin 2000) : tileEquiv x = row x.1 x.2 :=
  Fin.ext (Nat.add_comm x.2.val (2000 * x.1.val))

/-- A sum over the 100000 rows is the sum over the 50 tiles of the sums over the 2000 rows of each tile. -/
theorem sum_tiles {M : Type*} [AddCommMonoid M] (f : Fin 100000 → M) :
    ∑ t : Fin 50, ∑ p : Fin 2000, f (row t p) = ∑ R : Fin 100000, f R := by
  rw [← Fintype.sum_prod_type' (fun t p => f (row t p))]
  exact Fintype.sum_equiv tileEquiv _ _ fun x => congrArg f (tileEquiv_apply x).symm

/-- A sum over `t < n` of a function on `Fin n`, extended by zero, is the sum over `Fin n`. -/
theorem sum_range_fin {M : Type*} [AddCommMonoid M] (n : ℕ) (g : Fin n → M) :
    ∑ t ∈ Finset.range n, (if h : t < n then g ⟨t, h⟩ else 0) = ∑ t : Fin n, g t := by
  rw [Finset.sum_range]
  exact Finset.sum_congr rfl fun t _ => by rw [dif_pos t.isLt]

end Cert.RowTiles
-- ==== Proof.LibRealValued.lean ====
/-
  Extended reals that are real numbers.

  The pooling kernel and its reference are compared at inputs that are real numbers; every intermediate value is then
  a real number too.  The facts below carry the embedding of the reals through the operations met on the way: finite
  sums, the maximum with a value below `⊤`, a fold of maxima, the exponential and the quotient.
-/
import Idealize.ShloMosaic.PureOps.Ideal
import Idealize.ShloMosaic.PureOps.Ideal.Laws
import Mathlib.Data.Finset.Fold

noncomputable section

open scoped BigOperators

namespace Cert.Pool

open Idealize.ShloMosaic

/-- The embedding of the reals into the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The maximum of a real number and an extended real below `⊤` is a real number. -/
theorem max_real (μ : ℝ) (y : EReal) (hy : y < ⊤) : ∃ μ' : ℝ, max (μ : EReal) y = (μ' : EReal) := by
  induction y using EReal.rec with
  | bot => exact ⟨μ, max_eq_left bot_le⟩
  | top => exact absurd hy (lt_irrefl _)
  | coe v => exact ⟨max μ v, (EReal.coe_strictMono.monotone.map_max (a := μ) (b := v)).symm⟩

/-- A fold of maxima over real numbers, started below `⊤`, stays below `⊤`. -/
theorem fold_max_lt_top {ι : Type*} (s : Finset ι) (b : EReal) (hb : b < ⊤) (f : ι → ℝ) :
    s.fold max b (fun k => (f k : EReal)) < ⊤ :=
  (Finset.fold_max_lt _).mpr ⟨hb, fun k _ => EReal.coe_lt_top (f k)⟩

/-- A fold of maxima over a nonempty family of real numbers, started at `⊥`, is a real number. -/
theorem fold_max_real {ι : Type*} (s : Finset ι) (hs : s.Nonempty) (f : ι → ℝ) :
    ∃ M : ℝ, s.fold max (⊥ : EReal) (fun k => (f k : EReal)) = (M : EReal) := by
  obtain ⟨k₀, hk₀⟩ := hs
  have hlt := fold_max_lt_top s ⊥ bot_lt_top f
  have hge : (f k₀ : EReal) ≤ s.fold max (⊥ : EReal) (fun k => (f k : EReal)) :=
    (Finset.le_fold_max _).mpr (Or.inr ⟨k₀, hk₀, le_rfl⟩)
  generalize s.fold max (⊥ : EReal) (fun k => (f k : EReal)) = y at hlt hge
  induction y using EReal.rec with
  | bot => exact absurd hge (not_le.mpr (EReal.bot_lt_coe _))
  | top => exact absurd hlt (lt_irrefl _)
  | coe v => exact ⟨v, rfl⟩

/-- The exponential of a real number. -/
theorem exp_coe (r : ℝ) : Ideal.exp (r : EReal) = (Real.exp r : EReal) := rfl

/-- The quotient of two real numbers with a nonzero divisor. -/
theorem div_coe_coe (a b : ℝ) (hb : b ≠ 0) : Ideal.div (a : EReal) (b : EReal) = ((a / b : ℝ) : EReal) := by
  rw [Ideal.div_coe hb, ← EReal.coe_mul]
  exact congrArg _ (by rw [mul_one_div])

/-- The large negative word the running shift is reset to denotes a real number. -/
theorem neg_big_real : ∃ c0 : ℝ, Ideal.ofBits .f32 0xF149F2CA#32 = (c0 : EReal) := by
  refine ⟨-(13234890 * 2 ^ 76), ?_⟩
  simp [Ideal.ofBits, Ideal.ieee]

/-- The word of negative infinity. -/
theorem neg_inf_pattern : Ideal.ofBits .f32 0xFF800000#32 = ⊥ := by simp [Ideal.ofBits, Ideal.ieee]

end Cert.Pool

end
-- ==== Proof.Spec.lean ====
/-
  The mathematics both programs compute, over the extended reals.

  One graph layer: the neighbour sums `a` are added to the node features `x`, a linear layer gives the hidden
  values `H[r, j] = Σₖ (a[r,k] + x[r,k]) · w1[k,j] + b1[j]`, each hidden column is normalised by its mean and its
  variance over all 100000 rows, scaled and shifted, clipped below at zero, sent through a second linear layer and
  clipped again.

  The two programs differ in ONE place: the variance of a column.  One takes the mean of the squared deviations,
  `Σᵣ (H[r,j] − μⱼ)² / n`; the other the mean of the squares minus the squared mean, clipped below at zero,
  `max (Σᵣ H[r,j]² / n − μⱼ², 0)`.  For real-valued `H` and `n` the number of rows these agree
  (`varMoments_eq_varCentered`): expanding the square, `Σ (h − μ)² = Σ h² − 2 μ Σ h + n μ² = Σ h² − n μ²` because
  `n μ = Σ h`, and a mean of squares is not negative, so the clip does nothing.  On the extended reals the identity
  fails at infinite entries, which is why the hidden values are asked to be real.
-/
import Idealize.ShloMosaic.PureOps.Ideal
import Idealize.ShloMosaic.PureOps.Ideal.Laws
import Idealize.ShloMosaic.Lib.ValueIdx
import proofs.«110771_j50397146251358_2_alg».proof.Proof.LibRealValued

noncomputable section

open scoped BigOperators

namespace Cert.Spec

open Idealize.ShloMosaic Idealize.ShloMosaic.ValueIdx

/-- Node features and neighbour sums: 100000 rows of 256. -/
abbrev SX : Shape := ⟨2, ![100000, 256]⟩
/-- First weight matrix. -/
abbrev SW1 : Shape := ⟨2, ![256, 1024]⟩
/-- A vector over the 1024 hidden columns. -/
abbrev SH : Shape := ⟨1, ![1024]⟩
/-- Second weight matrix. -/
abbrev SW2 : Shape := ⟨2, ![1024, 256]⟩
/-- A vector over the 256 output columns. -/
abbrev SO : Shape := ⟨1, ![256]⟩

/-- The divisor of both means, as the programs spell it: the pattern of 100000.0. -/
def nrows : EReal := Ideal.ofBits .f32 0x47C35000#32
/-- The number added to the variance before the inverse square root, as the programs spell it. -/
def eps : EReal := Ideal.ofBits .f32 0x3727C5AC#32

/-- The pattern 0x47C35000 denotes the real number 100000: the number of rows. -/
theorem nrows_eq : nrows = ((100000 : ℝ) : EReal) := by
  unfold nrows
  simp [Ideal.ofBits, Ideal.ieee, -EReal.coe_mul]; norm_num

/-- The hidden value at row `r`, column `j`. -/
def hid (a x : SX.Idx → EReal) (w1 : SW1.Idx → EReal) (b1 : SH.Idx → EReal) (r : Fin 100000) (j : Fin 1024) : EReal :=
  (∑ k : Fin 256, (a (ix2 r k) + x (ix2 r k)) * w1 (ix2 k j)) + b1 (ix1 j)

/-- The mean of hidden column `j`. -/
def mean (H : Fin 100000 → Fin 1024 → EReal) (j : Fin 1024) : EReal :=
  Ideal.div (∑ r : Fin 100000, H r j) nrows

/-- The variance of hidden column `j` as the mean of the squared deviations from the mean. -/
def varCentered (H : Fin 100000 → Fin 1024 → EReal) (j : Fin 1024) : EReal :=
  Ideal.div (∑ r : Fin 100000, (H r j - mean H j) * (H r j - mean H j)) nrows

/-- The variance of hidden column `j` as the mean of the squares minus the squared mean, clipped below at zero. -/
def varMoments (H : Fin 100000 → Fin 1024 → EReal) (j : Fin 1024) : EReal :=
  max (Ideal.div (∑ r : Fin 100000, H r j * H r j) nrows - mean H j * mean H j) 0

/-- The scale of column `j`: the inverse square root of its variance plus `eps`. -/
def invstd (v : Fin 1024 → EReal) (j : Fin 1024) : EReal := Ideal.rsqrt (v j + eps)

/-- The normalised, scaled, shifted and clipped hidden value. -/
def act (H : Fin 100000 → Fin 1024 → EReal) (mu sc : Fin 1024 → EReal) (gm bt : SH.Idx → EReal)
    (r : Fin 100000) (j : Fin 1024) : EReal :=
  max ((H r j - mu j) * sc j * gm (ix1 j) + bt (ix1 j)) 0

/-- The output at row `r`, column `c`: the second linear layer of the activations, clipped below at zero. -/
def outAt (A : Fin 100000 → Fin 1024 → EReal) (w2 : SW2.Idx → EReal) (b2 : SO.Idx → EReal)
    (r : Fin 100000) (c : Fin 256) : EReal :=
  max ((∑ j : Fin 1024, A r j * w2 (ix2 j c)) + b2 (ix1 c)) 0

/-- The whole result with the variance taken as the mean of squared deviations. -/
def resultCentered (a x : SX.Idx → EReal) (w1 : SW1.Idx → EReal) (b1 gm bt : SH.Idx → EReal)
    (w2 : SW2.Idx → EReal) (b2 : SO.Idx → EReal) : SX.Idx → EReal := fun i =>
  outAt (act (hid a x w1 b1) (mean (hid a x w1 b1)) (invstd (varCentered (hid a x w1 b1))) gm bt) w2 b2 (i 0) (i 1)

/-- The whole result with the variance taken from the two moments. -/
def resultMoments (a x : SX.Idx → EReal) (w1 : SW1.Idx → EReal) (b1 gm bt : SH.Idx → EReal)
    (w2 : SW2.Idx → EReal) (b2 : SO.Idx → EReal) : SX.Idx → EReal := fun i =>
  outAt (act (hid a x w1 b1) (mean (hid a x w1 b1)) (invstd (varMoments (hid a x w1 b1))) gm bt) w2 b2 (i 0) (i 1)

/-- For real hidden values the two variances are the same number. -/
theorem varMoments_eq_varCentered (H : Fin 100000 → Fin 1024 → EReal) (hH : ∀ r j, ∃ v : ℝ, H r j = (v : EReal)) :
    varMoments H = varCentered H := by
  choose h hh using hH
  funext j
  have hN : (100000 : ℝ) ≠ 0 := by norm_num
  have hmean : mean H j = (((∑ r : Fin 100000, h r j) / 100000 : ℝ) : EReal) := by
    unfold mean
    rw [nrows_eq, show (∑ r : Fin 100000, H r j) = ((∑ r : Fin 100000, h r j : ℝ) : EReal) from by
      rw [Cert.Pool.coe_sum]; exact Finset.sum_congr rfl fun r _ => hh r j]
    exact Cert.Pool.div_coe_coe _ _ hN
  unfold varMoments varCentered
  rw [hmean, nrows_eq]
  set μ : ℝ := (∑ r : Fin 100000, h r j) / 100000 with hμ
  have h1 : (∑ r : Fin 100000, H r j * H r j) = ((∑ r : Fin 100000, h r j * h r j : ℝ) : EReal) := by
    rw [Cert.Pool.coe_sum]; exact Finset.sum_congr rfl fun r _ => by rw [hh r j, EReal.coe_mul]
  have h2 : (∑ r : Fin 100000, (H r j - (μ : EReal)) * (H r j - (μ : EReal)))
      = ((∑ r : Fin 100000, (h r j - μ) * (h r j - μ) : ℝ) : EReal) := by
    rw [Cert.Pool.coe_sum]; exact Finset.sum_congr rfl fun r _ => by rw [hh r j, ← EReal.coe_sub, EReal.coe_mul]
  rw [h1, h2, Cert.Pool.div_coe_coe _ _ hN, Cert.Pool.div_coe_coe _ _ hN, ← EReal.coe_mul, ← EReal.coe_sub]
  have key : (∑ r : Fin 100000, h r j * h r j) / 100000 - μ * μ = (∑ r : Fin 100000, (h r j - μ) * (h r j - μ)) / 100000 := by
    have hs : (∑ r : Fin 100000, (h r j - μ) * (h r j - μ))
        = (∑ r : Fin 100000, h r j * h r j) - 2 * μ * (∑ r : Fin 100000, h r j) + 100000 * (μ * μ) := by
      have : ∀ r : Fin 100000, (h r j - μ) * (h r j - μ) = h r j * h r j - 2 * μ * h r j + μ * μ := fun r => by ring
      simp only [this, Finset.sum_add_distrib, Finset.sum_sub_distrib, ← Finset.mul_sum, Finset.sum_const,
        Finset.card_univ, Fintype.card_fin, nsmul_eq_mul]
      push_cast; ring
    have hsum : (∑ r : Fin 100000, h r j) = 100000 * μ := by rw [hμ]; field_simp
    rw [hs, hsum]; field_simp; ring
  rw [key]
  have hnn : (0 : ℝ) ≤ (∑ r : Fin 100000, (h r j - μ) * (h r j - μ)) / 100000 :=
    div_nonneg (Finset.sum_nonneg fun r _ => mul_self_nonneg _) (by norm_num)
  exact max_eq_left (by exact_mod_cast hnn)

/-- So for real hidden values the two results are the same array. -/
theorem resultMoments_eq_resultCentered (a x : SX.Idx → EReal) (w1 : SW1.Idx → EReal) (b1 gm bt : SH.Idx → EReal)
    (w2 : SW2.Idx → EReal) (b2 : SO.Idx → EReal) (hH : ∀ r j, ∃ v : ℝ, hid a x w1 b1 r j = (v : EReal)) :
    resultMoments a x w1 b1 gm bt w2 b2 = resultCentered a x w1 b1 gm bt w2 b2 := by
  unfold resultMoments resultCentered
  rw [varMoments_eq_varCentered _ hH]

end Cert.Spec

end
-- ==== Proof.StatsRows.lean ====
/-
  The first grid's two result rows as sums over all 100000 rows.

  Tile `t` of the neighbour sums and of the features is rows 2000·t … 2000·t + 1999 of the arrays the grid finds;
  the first weights and the first bias are read whole at every tile.  So the hidden value of row `p` of tile `t` is
  the hidden value of row 2000·t + p of the whole arrays, and the column sums over the fifty tiles are the column
  sums over all the rows.
-/
import proofs.«110771_j50397146251358_2_alg».proof.Proof.Stats
import proofs.«110771_j50397146251358_2_alg».proof.Proof.RowTiles
import proofs.«110771_j50397146251358_2_alg».proof.Proof.Spec

set_option maxRecDepth 16384

noncomputable section

open scoped BigOperators

namespace Cert.KernelIdeal.Stats

open Cert.KernelIdeal Cert.KernelIdeal.Gen Cert.KernelIdeal.Tile
open Idealize.ShloMosaic Idealize.ShloMosaic.TcCoe Idealize.ShloMosaic.ValueIdx Idealize.SL.Sem

variable (V : (c : Dev nD) → (b : Ref sig .tc) → Buf (Elt Ideal) ((c : Thread nD τ).loc b))

/-- A [1, 1024] array read as a vector over its second axis. -/
def asVec (v : S1x1024.Idx → EReal) : Cert.Spec.SH.Idx → EReal := fun j => v (ix2 (0 : Fin 1) (j 0))

/-- Where the four input windows point at tile `t`: the two row-tiled windows at block row `t`, the two resident
    windows at block (0, 0) — decided once over the grid. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row `p` of tile `t` of the neighbour sums is row 2000·t + p of the array. -/
theorem blk0_0 (c : Dev nD) (t : Fin cfg0.N) (p : Fin 2000) (k : Fin 256) (R : Fin 100000)
    (hR : R.val = 2000 * t.val + p.val) :
    (iblk0 V c 0 t : Vec Ideal S2000x256 .f32) (ix2 p k) = (V c main_v13 : S100000x256.Idx → EReal) (ix2 R k) := by
  unfold iblk0
  rw [View.read_apply]
  show (V c main_v13 : S100000x256.Idx → EReal) (((cfg0.win 0).blk t).view.emb (ix2 p k)) = _
  refine congrArg _ (funext fun a => Fin.ext ?_)
  obtain ⟨e0, e1, -⟩ := idx0 t
  match a with
  | ⟨0, _⟩ => show win0_0.index t (0 : Fin 2) * 2000 + 1 * p.val = R.val; rw [e0, hR]; omega
  | ⟨1, _⟩ => show win0_0.index t (1 : Fin 2) * 256 + 1 * k.val = k.val; rw [e1]; omega

/-- Row `p` of tile `t` of the features is row 2000·t + p of the array. -/
theorem blk0_1 (c : Dev nD) (t : Fin cfg0.N) (p : Fin 2000) (k : Fin 256) (R : Fin 100000)
    (hR : R.val = 2000 * t.val + p.val) :
    (iblk0 V c 1 t : Vec Ideal S2000x256 .f32) (ix2 p k) = (V c main_arg0 : S100000x256.Idx → EReal) (ix2 R k) := by
  unfold iblk0
  rw [View.read_apply]
  show (V c main_arg0 : S100000x256.Idx → EReal) (((cfg0.win 1).blk t).view.emb (ix2 p k)) = _
  refine congrArg _ (funext fun a => Fin.ext ?_)
  obtain ⟨-, -, e0, e1, -⟩ := idx0 t
  match a with
  | ⟨0, _⟩ => show win0_1.index t (0 : Fin 2) * 2000 + 1 * p.val = R.val; rw [e0, hR]; omega
  | ⟨1, _⟩ => show win0_1.index t (1 : Fin 2) * 256 + 1 * k.val = k.val; rw [e1]; omega

/-- The first weights are read whole at every tile. -/
theorem blk0_2 (c : Dev nD) (t : Fin cfg0.N) (k : Fin 256) (q : Fin 1024) :
    (iblk0 V c 2 t : Vec Ideal S256x1024 .bf16) (ix2 k q) = (V c main_v14 : S256x1024.Idx → EReal) (ix2 k q) := by
  unfold iblk0
  rw [View.read_apply]
  show (V c main_v14 : S256x1024.Idx → EReal) (((cfg0.win 2).blk t).view.emb (ix2 k q)) = _
  refine congrArg _ (funext fun a => Fin.ext ?_)
  obtain ⟨-, -, -, -, e0, e1, -⟩ := idx0 t
  match a with
  | ⟨0, _⟩ => show win0_2.index t (0 : Fin 2) * 256 + 1 * k.val = k.val; rw [e0]; omega
  | ⟨1, _⟩ => show win0_2.index t (1 : Fin 2) * 1024 + 1 * q.val = q.val; rw [e1]; omega

/-- The first bias is read whole at every tile. -/
theorem blk0_3 (c : Dev nD) (t : Fin cfg0.N) (u : Fin 1) (q : Fin 1024) :
    (iblk0 V c 3 t : Vec Ideal S1x1024 .f32) (ix2 u q) = (V c main_v16 : S1x1024.Idx → EReal) (ix2 u q) := by
  unfold iblk0
  rw [View.read_apply]
  show (V c main_v16 : S1x1024.Idx → EReal) (((cfg0.win 3).blk t).view.emb (ix2 u q)) = _
  refine congrArg _ (funext fun a => Fin.ext ?_)
  obtain ⟨-, -, -, -, -, -, e0, e1⟩ := idx0 t
  match a with
  | ⟨0, _⟩ => show win0_3.index t (0 : Fin 2) * 1 + 1 * u.val = u.val; rw [e0]; omega
  | ⟨1, _⟩ => show win0_3.index t (1 : Fin 2) * 1024 + 1 * q.val = q.val; rw [e1]; omega

/-- The hidden values of the whole arrays the first grid finds. -/
def hidAll (c : Dev nD) : Fin 100000 → Fin 1024 → EReal :=
  Cert.Spec.hid (V c main_v13 : S100000x256.Idx → EReal) (V c main_arg0 : S100000x256.Idx → EReal)
    (V c main_v14 : S256x1024.Idx → EReal) (asVec (V c main_v16 : S1x1024.Idx → EReal))

/-- The hidden value of row `p` of tile `t` is the hidden value of row 2000·t + p of the whole arrays. -/
theorem hidTile_eq (c : Dev nD) (t : Fin cfg0.N) (p : Fin 2000) (q : Fin 1024) (R : Fin 100000)
    (hR : R.val = 2000 * t.val + p.val) :
    hidTile (iblk0 V c 0 t) (iblk0 V c 1 t) (iblk0 V c 2 t) (iblk0 V c 3 t) p q = hidAll V c R q := by
  unfold hidTile hidAll Cert.Spec.hid asVec
  rw [blk0_3]
  refine congrArg (· + _) (Finset.sum_congr rfl fun k _ => ?_)
  rw [blk0_0 V c t p k R hR, blk0_1 V c t p k R hR, blk0_2]

/-- The tile count is fifty. -/
theorem sum_tiles_cast (g : Fin cfg0.N → EReal) :
    ∑ t : Fin cfg0.N, g t = ∑ t : Fin 50, g (Fin.cast (show 50 = cfg0.N from (show cfg0.N = 50 from N_0).symm) t) :=
  (Fintype.sum_equiv (finCongr (show 50 = cfg0.N from (show cfg0.N = 50 from N_0).symm)) _ _ (fun _ => rfl)).symm

/-- The first result row: at column `q` the sum of the hidden values over all rows. -/
theorem colSums_apply (c : Dev nD) (q : Fin 1024) :
    colSums V c (ix2 (0 : Fin 1) q) = ∑ R : Fin 100000, hidAll V c R q := by
  show ∑ t : Fin cfg0.N, tileSum V c t q = _
  rw [sum_tiles_cast, ← Cert.RowTiles.sum_tiles]
  refine Finset.sum_congr rfl fun t _ => ?_
  unfold tileSum
  exact Finset.sum_congr rfl fun p _ => hidTile_eq V c _ p q (Cert.RowTiles.row t p) rfl

/-- The second result row: at column `q` the sum of the squared hidden values over all rows. -/
theorem colSqs_apply (c : Dev nD) (q : Fin 1024) :
    colSqs V c (ix2 (0 : Fin 1) q) = ∑ R : Fin 100000, hidAll V c R q * hidAll V c R q := by
  show ∑ t : Fin cfg0.N, tileSq V c t q = _
  rw [sum_tiles_cast, ← Cert.RowTiles.sum_tiles (fun R => hidAll V c R q * hidAll V c R q)]
  refine Finset.sum_congr rfl fun t _ => ?_
  unfold tileSq
  exact Finset.sum_congr rfl fun p _ => by
    have e := hidTile_eq V c (Fin.cast (show 50 = cfg0.N from (show cfg0.N = 50 from N_0).symm) t) p q (Cert.RowTiles.row t p) rfl
    rw [e]

end Cert.KernelIdeal.Stats

end
-- ==== Proof.Moments.lean ====
/-
  Mean and scale when the second grid is entered.

  Between the two grids the host divides the two result rows of the first grid by the number of rows, subtracts the
  squared mean from the mean of the squares, clips the difference below at zero, adds `eps` and takes the inverse
  square root.  With the two rows read as sums over all 100000 rows this is the specification's column mean and its
  scale built on the two-moment variance.
-/
import proofs.«110771_j50397146251358_2_alg».proof.Proof.Gen.KernelIdeal.Frame
import proofs.«110771_j50397146251358_2_alg».proof.Proof.StatsRows
import Idealize.ShloMosaic.Lib.StableHlo.Run
import Idealize.ShloMosaic.Lib.Pipeline.Value

set_option maxRecDepth 16384

noncomputable section

open scoped BigOperators

namespace Cert.KernelIdeal.Moments

open Cert.KernelIdeal Cert.KernelIdeal.Gen Cert.KernelIdeal.Stats
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The hidden values of the arrays the first grid is entered with. -/
abbrev H (c : Dev nD) : Fin 100000 → Fin 1024 → EReal := hidAll (V1 m ρ) c

/-- The first grid leaves the column sums in its first result array. -/
theorem sums_exit (c : Dev nD) :
    (W2 m ρ c (Proc.devRef .tc main_v20_0) : S1x1024.Idx → EReal) = colSums (V1 m ρ) c :=
  (W2_arr m ρ c 4).trans (final4 (V1 m ρ) c)

/-- The first grid leaves the column sums of squares in its second result array. -/
theorem sqs_exit (c : Dev nD) :
    (W2 m ρ c (Proc.devRef .tc main_v20_1) : S1x1024.Idx → EReal) = colSqs (V1 m ρ) c :=
  (W2_arr m ρ c 5).trans (final5 (V1 m ρ) c)

/-- A scalar spread over the row reads as the scalar. -/
theorem spread_apply (v : S_.Idx → EReal) (i : S1x1024.Idx) :
    broadcastInDim S1x1024 ![] bcast_S_S1x1024 v i = v ix0 :=
  broadcastInDim_apply _ bcast_S_S1x1024 v i ix0 (fun a => a.elim0)

/-- The mean row the second grid is entered with. -/
theorem mean_entry (c : Dev nD) (j : Fin 1024) :
    (V3 m ρ c main_v22 : S1x1024.Idx → EReal) (ix2 (0 : Fin 1) j) = Cert.Spec.mean (H m ρ c) j := by
  have e : (V3 m ρ c main_v22 : S1x1024.Idx → EReal)
      = Host.divf (W2 m ρ c (Proc.devRef .tc main_v20_0) : S1x1024.Idx → EReal)
          (broadcastInDim S1x1024 ![] bcast_S_S1x1024 (constant (F := Ideal) S_ .f32 0x47C35000#32)) := by
    show StableHlo.after hostOps1 (W2 m ρ c) (Proc.devRef .tc main_v22) = _
    after_results
  rw [e, sums_exit]
  show Ideal.div (colSums (V1 m ρ) c (ix2 (0 : Fin 1) j)) (broadcastInDim S1x1024 ![] bcast_S_S1x1024 (constant (F := Ideal) S_ .f32 0x47C35000#32) (ix2 (0 : Fin 1) j)) = _
  rw [spread_apply, colSums_apply]
  rfl

/-- The scale row the second grid is entered with. -/
theorem invstd_entry (c : Dev nD) (j : Fin 1024) :
    (V3 m ρ c main_v31 : S1x1024.Idx → EReal) (ix2 (0 : Fin 1) j)
      = Cert.Spec.invstd (Cert.Spec.varMoments (H m ρ c)) j := by
  have e : (V3 m ρ c main_v31 : S1x1024.Idx → EReal)
      = Host.rsqrt (addf (maximumf (subf
          (Host.divf (W2 m ρ c (Proc.devRef .tc main_v20_1) : S1x1024.Idx → EReal)
            (broadcastInDim S1x1024 ![] bcast_S_S1x1024 (constant (F := Ideal) S_ .f32 0x47C35000#32)))
          (mulf (Host.divf (W2 m ρ c (Proc.devRef .tc main_v20_0) : S1x1024.Idx → EReal)
              (broadcastInDim S1x1024 ![] bcast_S_S1x1024 (constant (F := Ideal) S_ .f32 0x47C35000#32)))
            (Host.divf (W2 m ρ c (Proc.devRef .tc main_v20_0) : S1x1024.Idx → EReal)
              (broadcastInDim S1x1024 ![] bcast_S_S1x1024 (constant (F := Ideal) S_ .f32 0x47C35000#32)))))
          (broadcastInDim S1x1024 ![] bcast_S_S1x1024 (constant (F := Ideal) S_ .f32 0x00000000#32)))
          (broadcastInDim S1x1024 ![] bcast_S_S1x1024 (constant (F := Ideal) S_ .f32 0x3727C5AC#32))) := by
    show StableHlo.after hostOps1 (W2 m ρ c) (Proc.devRef .tc main_v31) = _
    after_results
  rw [e, sums_exit, sqs_exit]
  show Ideal.rsqrt (max (Ideal.div (colSqs (V1 m ρ) c (ix2 (0 : Fin 1) j)) (broadcastInDim S1x1024 ![] bcast_S_S1x1024 (constant (F := Ideal) S_ .f32 0x47C35000#32) (ix2 (0 : Fin 1) j))
      - Ideal.div (colSums (V1 m ρ) c (ix2 (0 : Fin 1) j)) (broadcastInDim S1x1024 ![] bcast_S_S1x1024 (constant (F := Ideal) S_ .f32 0x47C35000#32) (ix2 (0 : Fin 1) j))
        * Ideal.div (colSums (V1 m ρ) c (ix2 (0 : Fin 1) j)) (broadcastInDim S1x1024 ![] bcast_S_S1x1024 (constant (F := Ideal) S_ .f32 0x47C35000#32) (ix2 (0 : Fin 1) j)))
      (broadcastInDim S1x1024 ![] bcast_S_S1x1024 (constant (F := Ideal) S_ .f32 0x00000000#32) (ix2 (0 : Fin 1) j))
      + broadcastInDim S1x1024 ![] bcast_S_S1x1024 (constant (F := Ideal) S_ .f32 0x3727C5AC#32) (ix2 (0 : Fin 1) j)) = _
  rw [spread_apply, spread_apply, spread_apply, colSums_apply, colSqs_apply]
  show Ideal.rsqrt (max _ (Ideal.ofBits .f32 0x00000000#32) + _) = _
  rw [Ideal.ofBits_zero_f32]
  rfl

end Cert.KernelIdeal.Moments

end
-- ==== Proof.MainGrid.lean ====
/-
  The second grid, read as one function of the arrays it finds.

  The grid has 50 points; point `t` works on rows `2000 · t … 2000 · t + 1999`.  It reads the tile of the neighbour
  sums and of the node features at those rows, the whole of the two weight matrices, of the two bias rows, of the row
  of column means, of the row of column scales and of the rows `γ` and `β`, and writes the tile of the output at the
  same rows.  On a tile the body computes, at row `p` and column `q`,

    max (Σⱼ A[p,j] · w2[j,q] + b2[q], 0),   A[p,j] = max ((H[p,j] − μⱼ) · sⱼ · γⱼ + βⱼ, 0),
    H[p,j] = Σₖ (a[p,k] + x[p,k]) · w1[k,j] + b1[j]

  (`Cert.KernelIdeal.Tile.out_apply`).  An entry `(p, k)` of a row tile is the entry `(2000 · t + p, k)` of its array and
  the resident blocks are their arrays, so this is the specification's `outAt` of `act` of `hid` of the arrays at row
  `2000 · t + p`: what point `t` writes is block `t` of one whole-array function `mainOut`.  The 50 blocks cover the
  100000 rows (row `r` is in block `r / 2000`), so after the grid the output array is `mainOut`.
-/
import proofs.«110771_j50397146251358_2_alg».proof.Proof.Gen.KernelIdeal.Frame
import proofs.«110771_j50397146251358_2_alg».proof.Proof.Tile
import proofs.«110771_j50397146251358_2_alg».proof.Proof.Spec
import Idealize.ShloMosaic.Lib.Pipeline.Value
import Idealize.ShloMosaic.Lib.ValueIdx

set_option maxRecDepth 16384

noncomputable section

open scoped BigOperators

namespace Cert.KernelIdeal.MainGrid

open Cert.KernelIdeal Cert.KernelIdeal.Gen Cert.KernelIdeal.Tile
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ### The index maps and the blocks -/

/-- The eleven windows' index maps over the 50 grid points: the two row-tiled inputs and the output take block `t` of the
    rows at point `t` (block index `(t, 0)`); the eight other inputs are whole arrays, always at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- Row `p` of tile `t` is one of the 100000 rows: `2000 · t + p < 2000 · 50`. -/
theorem lt_rows (t : Fin cfg1.N) (p : Fin 2000) : 2000 * t.val + p.val < 100000 := by
  have ht : t.val < 50 := Nat.lt_of_lt_of_eq t.isLt (show cfg1.N = 50 from N_1)
  have hp := p.isLt
  omega

/-- Row `p` of the tile of grid point `t`, as a row of the whole array. -/
def rowOf (t : Fin cfg1.N) (p : Fin 2000) : Fin 100000 := ⟨2000 * t.val + p.val, lt_rows t p⟩

/-- The neighbour sums' block at point `t`: entry `(p, k)` is the array's entry `(2000 · t + p, k)`. -/
theorem blk0_at (c : Dev nD) (t : Fin cfg1.N) (p : Fin 2000) (k : Fin 256) :
    (iblk1 V c 0 t : Vec Ideal S2000x256 .f32) (ix2 p k)
      = (V c main_v13 : S100000x256.Idx → EReal) (ix2 (rowOf t p) k) := by
  obtain ⟨h0, h1, -⟩ := idx_facts t
  unfold iblk1
  rw [View.read_apply]
  show (V c main_v13 : S100000x256.Idx → EReal) (((cfg1.win 0).blk t).view.emb (ix2 p k)) = _
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 256 + 1 * k.val = k.val; omega

/-- The node features' block at point `t`: entry `(p, k)` is the array's entry `(2000 · t + p, k)`. -/
theorem blk1_at (c : Dev nD) (t : Fin cfg1.N) (p : Fin 2000) (k : Fin 256) :
    (iblk1 V c 1 t : Vec Ideal S2000x256 .f32) (ix2 p k)
      = (V c main_arg0 : S100000x256.Idx → EReal) (ix2 (rowOf t p) k) := by
  obtain ⟨-, -, h0, h1, -⟩ := idx_facts t
  unfold iblk1
  rw [View.read_apply]
  show (V c main_arg0 : S100000x256.Idx → EReal) (((cfg1.win 1).blk t).view.emb (ix2 p k)) = _
  refine congrArg _ (funext fun a => Fin.ext ?_)
  match a with
  | ⟨0, _⟩ => show win1_1.index t (0 : Fin 2) * 2000 + 1 * p.val = 2000 * t.val + p.val; omega
  | ⟨1, _⟩ => show win1_1.index t (1 : Fin 2) * 256 + 1 * k.val = k.val; omega

/-- The first weight matrix is resident: its block at every point is the whole array. -/
theorem blk2_at (c : Dev nD) (t : Fin cfg1.N) (k : Fin 256) (q : Fin 1024) :
    (iblk1 V c 2 t : Vec Ideal S256x1024 .bf16) (ix2 k q)
      = (V c main_v14 : S256x1024.Idx → EReal) (ix2 k q) := by
  obtain ⟨-, -, -, -, h0, h1, -⟩ := idx_facts t
  unfold iblk1
  rw [View.read_apply]
  show (V c main_v14 : S256x1024.Idx → EReal) (((cfg1.win 2).blk t).view.emb (ix2 k q)) = _
  refine congrArg _ (funext fun a => Fin.ext ?_)
  match a with
  | ⟨0, _⟩ => show win1_2.index t (0 : Fin 2) * 256 + 1 * k.val = k.val; omega
  | ⟨1, _⟩ => show win1_2.index t (1 : Fin 2) * 1024 + 1 * q.val = q.val; omega

/-- The first bias row is resident: its block at every point is the whole [1, 1024] array. -/
theorem blk3_at (c : Dev nD) (t : Fin cfg1.N) (q : Fin 1024) :
    (iblk1 V c 3 t : Vec Ideal S1x1024 .f32) (ix2 (0 : Fin 1) q)
      = (V c main_v16 : S1x1024.Idx → EReal) (ix2 (0 : Fin 1) q) := by
  have h := idx_facts t
  unfold iblk1
  rw [View.read_apply]
  show (V c main_v16 : S1x1024.Idx → EReal) (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 1024 + 1 * q.val = q.val; omega

/-- The row of column means is resident: its block at every point is the whole [1, 1024] array. -/
theorem blk4_at (c : Dev nD) (t : Fin cfg1.N) (q : Fin 1024) :
    (iblk1 V c 4 t : Vec Ideal S1x1024 .f32) (ix2 (0 : Fin 1) q)
      = (V c main_v22 : S1x1024.Idx → EReal) (ix2 (0 : Fin 1) q) := by
  have h := idx_facts t
  unfold iblk1
  rw [View.read_apply]
  show (V c main_v22 : S1x1024.Idx → EReal) (((cfg1.win 4).blk t).view.emb (ix2 (0 : Fin 1) q)) = _
  refine congrArg _ (funext fun a => Fin.ext ?_)
  match a with
  | ⟨0, _⟩ => show win1_4.index t (0 : Fin 2) * 1 + 1 * 0 = 0; omega
  | ⟨1, _⟩ => show win1_4.index t (1 : Fin 2) * 1024 + 1 * q.val = q.val; omega

/-- The row of column scales is resident: its block at every point is the whole [1, 1024] array. -/
theorem blk5_at (c : Dev nD) (t : Fin cfg1.N) (q : Fin 1024) :
    (iblk1 V c 5 t : Vec Ideal S1x1024 .f32) (ix2 (0 : Fin 1) q)
      = (V c main_v31 : S1x1024.Idx → EReal) (ix2 (0 : Fin 1) q) := by
  have h := idx_facts t
  unfold iblk1
  rw [View.read_apply]
  show (V c main_v31 : S1x1024.Idx → EReal) (((cfg1.win 5).blk t).view.emb (ix2 (0 : Fin 1) q)) = _
  refine congrArg _ (funext fun a => Fin.ext ?_)
  match a with
  | ⟨0, _⟩ => show win1_5.index t (0 : Fin 2) * 1 + 1 * 0 = 0; omega
  | ⟨1, _⟩ => show win1_5.index t (1 : Fin 2) * 1024 + 1 * q.val = q.val; omega

/-- The multiplier row `γ` is resident: its block at every point is the whole [1, 1024] array. -/
theorem blk6_at (c : Dev nD) (t : Fin cfg1.N) (q : Fin 1024) :
    (iblk1 V c 6 t : Vec Ideal S1x1024 .f32) (ix2 (0 : Fin 1) q)
      = (V c main_v17 : S1x1024.Idx → EReal) (ix2 (0 : Fin 1) q) := by
  have h := idx_facts t
  unfold iblk1
  rw [View.read_apply]
  show (V c main_v17 : S1x1024.Idx → EReal) (((cfg1.win 6).blk t).view.emb (ix2 (0 : Fin 1) q)) = _
  refine congrArg _ (funext fun a => Fin.ext ?_)
  match a with
  | ⟨0, _⟩ => show win1_6.index t (0 : Fin 2) * 1 + 1 * 0 = 0; omega
  | ⟨1, _⟩ => show win1_6.index t (1 : Fin 2) * 1024 + 1 * q.val = q.val; omega

/-- The shift row `β` is resident: its block at every point is the whole [1, 1024] array. -/
theorem blk7_at (c : Dev nD) (t : Fin cfg1.N) (q : Fin 1024) :
    (iblk1 V c 7 t : Vec Ideal S1x1024 .f32) (ix2 (0 : Fin 1) q)
      = (V c main_v18 : S1x1024.Idx → EReal) (ix2 (0 : Fin 1) q) := by
  have h := idx_facts t
  unfold iblk1
  rw [View.read_apply]
  show (V c main_v18 : S1x1024.Idx → EReal) (((cfg1.win 7).blk t).view.emb (ix2 (0 : Fin 1) q)) = _
  refine congrArg _ (funext fun a => Fin.ext ?_)
  match a with
  | ⟨0, _⟩ => show win1_7.index t (0 : Fin 2) * 1 + 1 * 0 = 0; omega
  | ⟨1, _⟩ => show win1_7.index t (1 : Fin 2) * 1024 + 1 * q.val = q.val; omega

/-- The second weight matrix is resident: its block at every point is the whole array. -/
theorem blk8_at (c : Dev nD) (t : Fin cfg1.N) (j : Fin 1024) (q : Fin 256) :
    (iblk1 V c 8 t : Vec Ideal S1024x256 .bf16) (ix2 j q)
      = (V c main_v15 : S1024x256.Idx → EReal) (ix2 j q) := by
  have h := idx_facts t
  unfold iblk1
  rw [View.read_apply]
  show (V c main_v15 : S1024x256.Idx → EReal) (((cfg1.win 8).blk t).view.emb (ix2 j q)) = _
  refine congrArg _ (funext fun a => Fin.ext ?_)
  match a with
  | ⟨0, _⟩ => show win1_8.index t (0 : Fin 2) * 1024 + 1 * j.val = j.val; omega
  | ⟨1, _⟩ => show win1_8.index t (1 : Fin 2) * 256 + 1 * q.val = q.val; omega

/-- The second bias row is resident: its block at every point is the whole [1, 256] array. -/
theorem blk9_at (c : Dev nD) (t : Fin cfg1.N) (q : Fin 256) :
    (iblk1 V c 9 t : Vec Ideal S1x256 .f32) (ix2 (0 : Fin 1) q)
      = (V c main_v19 : S1x256.Idx → EReal) (ix2 (0 : Fin 1) q) := by
  have h := idx_facts t
  unfold iblk1
  rw [View.read_apply]
  show (V c main_v19 : S1x256.Idx → EReal) (((cfg1.win 9).blk t).view.emb (ix2 (0 : Fin 1) q)) = _
  refine congrArg _ (funext fun a => Fin.ext ?_)
  match a with
  | ⟨0, _⟩ => show win1_9.index t (0 : Fin 2) * 1 + 1 * 0 = 0; omega
  | ⟨1, _⟩ => show win1_9.index t (1 : Fin 2) * 256 + 1 * q.val = q.val; omega

/-! ### The result as one function of the arrays -/

/-- A [1, n] array read as a vector over its second axis. -/
def rowVec {n : ℕ} (v : (⟨2, ![1, n]⟩ : Shape).Idx → EReal) : (⟨1, ![n]⟩ : Shape).Idx → EReal :=
  fun j => v (ix2 (0 : Fin 1) (j 0))

/-- The second grid's result as one function of the arrays the region finds. -/
def mainOut (c : Dev nD) : S100000x256.Idx → EReal := fun i =>
  Cert.Spec.outAt
    (Cert.Spec.act (Cert.Spec.hid (V c main_v13) (V c main_arg0) (V c main_v14) (rowVec (V c main_v16)))
      (fun j => V c main_v22 (ix2 (0 : Fin 1) j)) (fun j => V c main_v31 (ix2 (0 : Fin 1) j))
      (rowVec (V c main_v17)) (rowVec (V c main_v18)))
    (V c main_v15) (rowVec (V c main_v19)) (i 0) (i 1)

/-- The hidden value of row `p` of tile `t`, computed from the blocks, is the hidden value of row `2000 · t + p`
    computed from the arrays: `Σₖ (a[r,k] + x[r,k]) · w1[k,j] + b1[j]` term for term. -/
theorem hid_blk (c : Dev nD) (t : Fin cfg1.N) (p : Fin 2000) (j : Fin 1024) :
    hidTile (iblk1 V c 0 t) (iblk1 V c 1 t) (iblk1 V c 2 t) (iblk1 V c 3 t) p j
      = Cert.Spec.hid (V c main_v13) (V c main_arg0) (V c main_v14) (rowVec (V c main_v16)) (rowOf t p) j := by
  unfold hidTile Cert.Spec.hid
  rw [blk3_at]
  refine congrArg (fun s => s + _) (Finset.sum_congr rfl fun k _ => ?_)
  rw [blk0_at, blk1_at, blk2_at]

/-- The same for the normalised, scaled, shifted and clipped hidden value:
    `max ((H[r,j] − μⱼ) · sⱼ · γⱼ + βⱼ, 0)` at `r = 2000 · t + p`. -/
theorem act_blk (c : Dev nD) (t : Fin cfg1.N) (p : Fin 2000) (j : Fin 1024) :
    actTile (iblk1 V c 0 t) (iblk1 V c 1 t) (iblk1 V c 2 t) (iblk1 V c 3 t) (iblk1 V c 4 t) (iblk1 V c 5 t)
        (iblk1 V c 6 t) (iblk1 V c 7 t) p j
      = Cert.Spec.act (Cert.Spec.hid (V c main_v13) (V c main_arg0) (V c main_v14) (rowVec (V c main_v16)))
          (fun j => V c main_v22 (ix2 (0 : Fin 1) j)) (fun j => V c main_v31 (ix2 (0 : Fin 1) j))
          (rowVec (V c main_v17)) (rowVec (V c main_v18)) (rowOf t p) j := by
  unfold actTile Cert.Spec.act
  rw [hid_blk, blk4_at, blk5_at, blk6_at, blk7_at]
  rfl

/-- The same for the tile's result: `max (Σⱼ A[r,j] · w2[j,q] + b2[q], 0)` at `r = 2000 · t + p` is the whole-array
    function read at `(2000 · t + p, q)`. -/
theorem out_blk (c : Dev nD) (t : Fin cfg1.N) (p : Fin 2000) (q : Fin 256) :
    outTile (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) p q
      = mainOut V c (ix2 (rowOf t p) q) := by
  unfold outTile
  rw [blk9_at]
  show _ = Cert.Spec.outAt _ (V c main_v15) (rowVec (V c main_v19)) (rowOf t p) q
  unfold Cert.Spec.outAt
  refine congrArg (fun s => max (s + _) 0) (Finset.sum_congr rfl fun j _ => ?_)
  rw [act_blk, blk8_at]

/-! ### What a grid point writes, the cover, the array after the grid -/

/-- The zero offsets of a whole-block access. -/
theorem hz : (![0, 0] : Fin 2 → Nat) = fun _ => 0 := funext fun a => by fin_cases a <;> rfl

/-- The body's result on the blocks of point `t`, at an entry `y` of the tile, is the whole-array function at the
    index the output's block sends `y` to: row `2000 · t + y₀`, column `y₁`. -/
theorem tile_at (c : Dev nD) (t : Fin cfg1.N) (y : S2000x256.Idx) :
    k1_pay1 (F := Ideal) (k1_pay2 (iblk1 V c 0 t) (iblk1 V c 1 t) (iblk1 V c 2 t) (iblk1 V c 3 t) (iblk1 V c 4 t)
        (iblk1 V c 5 t) (iblk1 V c 6 t) (iblk1 V c 7 t) (iblk1 V c 8 t)) (k1_pay3 (iblk1 V c 9 t)) y
      = mainOut V c (((cfg1.win 10).blk t).view.emb y) := by
  obtain ⟨p, q, rfl⟩ : ∃ (p : Fin 2000) (q : Fin 256), y = ix2 p q := ⟨y 0, y 1, eq_ix2 y⟩
  refine (out_apply (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) p q).trans ?_
  rw [out_blk]
  have h := idx_facts t
  refine congrArg (mainOut V c) (funext fun a => Fin.ext ?_)
  match a with
  | ⟨0, _⟩ => show 2000 * t.val + p.val = win1_10.index t (0 : Fin 2) * 2000 + 1 * p.val; omega
  | ⟨1, _⟩ => show q.val = win1_10.index t (1 : Fin 2) * 256 + 1 * q.val; omega

/-- What point `t` writes back to the output array is block `t` of the whole-array function. -/
theorem flushed10_eq (c : Dev nD) (t : Fin cfg1.N) :
    (dat1 V c).flushed 10 t = ((cfg1.win 10).blk t).view.read (Elt Ideal) (mainOut V c) := by
  show (cfg1.win 10).cut (grid1.coords t) ((dat1 V c).after 10 t) = _
  rw [after1_10]
  unfold out1_10
  rw [View.canon_unit_zero hz]
  simp only [View.ld_unit_zero (S := S2000x256) hz, View.ld_unit_zero (S := S256x1024) hz,
    View.ld_unit_zero (S := S1x1024) hz, View.ld_unit_zero (S := S1024x256) hz, View.ld_unit_zero (S := S1x256) hz]
  funext y
  rw [View.read_apply]
  exact tile_at V c t y

/-- An index of the output array is in point `t`'s block iff each coordinate lies in the block's range on its axis. -/
theorem mem_blk10 (t : Fin cfg1.N) (i : S100000x256.Idx) :
    i ∈ ((cfg1.win 10).blk t).view.set ↔ ∀ a : Fin 2, win1_10.index t a * S2000x256.size a ≤ (i a).val
      ∧ (i a).val < win1_10.index t a * S2000x256.size a + S2000x256.size a := by
  show i ∈ ((View.whole main_v32).slice (win1_10.rect t)).set ↔ _
  rw [View.set_slice_whole, Rect.mem_set_unit]
  exact Iff.rfl

/-- The 50 blocks cover the output array: row `r` lies in the block of the point `r / 2000`, since
    `(r / 2000) · 2000 ≤ r < (r / 2000) · 2000 + 2000`, and every block spans all 256 columns. -/
theorem cover10 (i : S100000x256.Idx) :
    ∃ t : Fin cfg1.N, (cfg1.win 10).flush t = true ∧ i ∈ ((cfg1.win 10).blk t).view.set := by
  have hi0 : (i 0).val < 100000 := (i 0).isLt
  have hi1 : (i 1).val < 256 := (i 1).isLt
  obtain ⟨t, ht⟩ : ∃ t : Fin cfg1.N, t.val = (i 0).val / 2000 :=
    ⟨⟨(i 0).val / 2000, Nat.lt_of_lt_of_eq (by omega : (i 0).val / 2000 < 50) (show 50 = cfg1.N from N_1.symm)⟩, rfl⟩
  have h := idx_facts t
  refine ⟨t, flush1_10 t, ?_⟩
  rw [mem_blk10]
  intro a
  match a with
  | ⟨0, _⟩ =>
    show win1_10.index t (0 : Fin 2) * 2000 ≤ (i 0).val ∧ (i 0).val < win1_10.index t (0 : Fin 2) * 2000 + 2000
    omega
  | ⟨1, _⟩ =>
    show win1_10.index t (1 : Fin 2) * 256 ≤ (i 1).val ∧ (i 1).val < win1_10.index t (1 : Fin 2) * 256 + 256
    omega

/-- After the 50 points the output array is the whole-array function: every index is written by the point whose tile
    holds its row, with that function's value there. -/
theorem final10 (c : Dev nD) : (dat1 V c).arrAt 10 cfg1.N = mainOut V c :=
  (dat1 V c).arrAt_eq_of_cover 10 (mainOut V c) (fun t _ => flushed10_eq V c t) cover10

end Cert.KernelIdeal.MainGrid

end
-- ==== Proof.Entry.lean ====
/-
  What the arrays hold when each of the kernel's two grids is entered.

  Before the first grid the host computes the neighbour sums (two rows of the index table are sliced out, negative
  indices are wrapped, the rows of the node features named by the first are gathered and added into an array of zeros
  at the rows named by the second), rewrites the two weight matrices in a narrower float format — the identity on
  the extended reals — and reshapes the four vectors of length 1024 or 256 into one-row matrices.  The first grid
  reads the neighbour sums, the node features, the first weight matrix and the first bias and writes only its two
  rows of column sums; the host operations between the grids turn those two rows into the mean and the inverse
  standard deviation and write nothing else.  So when the second grid is entered every array the host only copied or
  reshaped still holds what it held when the first grid was entered, and that is a copy or a reshape of an argument.

  What the neighbour sums ARE is read elsewhere; here they are only carried from the first entry to the second.
-/
import proofs.«110771_j50397146251358_2_alg».proof.Proof.Gen.KernelIdeal.Frame
import proofs.«110771_j50397146251358_2_alg».proof.Proof.Gen.ReferenceIdeal.Read
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Entry

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## At the entry of the first grid -/

/-- The node features are the argument itself: no host operation writes it. -/
theorem V1_x (c : Dev nD) :
    (V1 m ρ c main_arg0 : S100000x256.Idx → EReal) = m ((c : Thread nD τ).loc main_arg0) := by
  show StableHlo.after hostOps0 (W0 m ρ c) (Proc.devRef .tc main_arg0) = _
  after_results <;> rfl

/-- The first weight matrix is the argument: narrowing the float format is the identity on the extended reals. -/
theorem V1_w1 (c : Dev nD) :
    (V1 m ρ c main_v14 : S256x1024.Idx → EReal) = m ((c : Thread nD τ).loc main_arg2) := by
  show StableHlo.after hostOps0 (W0 m ρ c) (Proc.devRef .tc main_v14) = _
  after_results <;> rfl

/-- The second weight matrix likewise. -/
theorem V1_w2 (c : Dev nD) :
    (V1 m ρ c main_v15 : S1024x256.Idx → EReal) = m ((c : Thread nD τ).loc main_arg6) := by
  show StableHlo.after hostOps0 (W0 m ρ c) (Proc.devRef .tc main_v15) = _
  after_results <;> rfl

/-- The first bias as a one-row matrix. -/
theorem V1_b1 (c : Dev nD) :
    (V1 m ρ c main_v16 : S1x1024.Idx → EReal)
      = shapeCast S1x1024 (m ((c : Thread nD τ).loc main_arg3)) shapeCasts_S1024_S1x1024 := by
  show StableHlo.after hostOps0 (W0 m ρ c) (Proc.devRef .tc main_v16) = _
  after_results <;> rfl

/-- The scale of the normalisation as a one-row matrix. -/
theorem V1_gm (c : Dev nD) :
    (V1 m ρ c main_v17 : S1x1024.Idx → EReal)
      = shapeCast S1x1024 (m ((c : Thread nD τ).loc main_arg4)) shapeCasts_S1024_S1x1024 := by
  show StableHlo.after hostOps0 (W0 m ρ c) (Proc.devRef .tc main_v17) = _
  after_results <;> rfl

/-- The shift of the normalisation as a one-row matrix. -/
theorem V1_bt (c : Dev nD) :
    (V1 m ρ c main_v18 : S1x1024.Idx → EReal)
      = shapeCast S1x1024 (m ((c : Thread nD τ).loc main_arg5)) shapeCasts_S1024_S1x1024 := by
  show StableHlo.after hostOps0 (W0 m ρ c) (Proc.devRef .tc main_v18) = _
  after_results <;> rfl

/-- The second bias as a one-row matrix. -/
theorem V1_b2 (c : Dev nD) :
    (V1 m ρ c main_v19 : S1x256.Idx → EReal)
      = shapeCast S1x256 (m ((c : Thread nD τ).loc main_arg7)) shapeCasts_S256_S1x256 := by
  show StableHlo.after hostOps0 (W0 m ρ c) (Proc.devRef .tc main_v19) = _
  after_results <;> rfl

/-! ## At the entry of the second grid

Between the two entries run the first grid, which writes only its two rows of column sums, and the host operations
that turn them into the mean and the inverse standard deviation.  An array the first grid reads through an input
window is handed back as it was entered; an array it does not touch is not changed at all. -/

/-- The neighbour sums are those the first grid was entered with. -/
theorem V3_agg (c : Dev nD) : (V3 m ρ c main_v13 : S100000x256.Idx → EReal) = V1 m ρ c main_v13 := by
  have h3 : W3 m ρ c (Proc.devRef .tc main_v13) = W2 m ρ c (Proc.devRef .tc main_v13) := by
    show StableHlo.after hostOps1 (W2 m ρ c) (Proc.devRef .tc main_v13) = _
    after_results <;> rfl
  exact h3.trans ((W2_arr m ρ c 0).trans (((dat0 (V1 m ρ) c).arrAt_in 0 rfl _).trans (A_eq0 (V1 m ρ) c 0)))

/-- The node features are those the first grid was entered with. -/
theorem V3_x (c : Dev nD) : (V3 m ρ c main_arg0 : S100000x256.Idx → EReal) = V1 m ρ c main_arg0 := by
  have h3 : W3 m ρ c (Proc.devRef .tc main_arg0) = W2 m ρ c (Proc.devRef .tc main_arg0) := by
    show StableHlo.after hostOps1 (W2 m ρ c) (Proc.devRef .tc main_arg0) = _
    after_results <;> rfl
  exact h3.trans ((W2_arr m ρ c 1).trans (((dat0 (V1 m ρ) c).arrAt_in 1 rfl _).trans (A_eq0 (V1 m ρ) c 1)))

/-- The first weight matrix is the one the first grid was entered with. -/
theorem V3_w1 (c : Dev nD) : (V3 m ρ c main_v14 : S256x1024.Idx → EReal) = V1 m ρ c main_v14 := by
  have h3 : W3 m ρ c (Proc.devRef .tc main_v14) = W2 m ρ c (Proc.devRef .tc main_v14) := by
    show StableHlo.after hostOps1 (W2 m ρ c) (Proc.devRef .tc main_v14) = _
    after_results <;> rfl
  exact h3.trans ((W2_arr m ρ c 2).trans (((dat0 (V1 m ρ) c).arrAt_in 2 rfl _).trans (A_eq0 (V1 m ρ) c 2)))

/-- The first bias row is the one the first grid was entered with. -/
theorem V3_b1 (c : Dev nD) : (V3 m ρ c main_v16 : S1x1024.Idx → EReal) = V1 m ρ c main_v16 := by
  have h3 : W3 m ρ c (Proc.devRef .tc main_v16) = W2 m ρ c (Proc.devRef .tc main_v16) := by
    show StableHlo.after hostOps1 (W2 m ρ c) (Proc.devRef .tc main_v16) = _
    after_results <;> rfl
  exact h3.trans ((W2_arr m ρ c 3).trans (((dat0 (V1 m ρ) c).arrAt_in 3 rfl _).trans (A_eq0 (V1 m ρ) c 3)))

/-- The scale of the normalisation, as a one-row matrix. -/
theorem V3_gm (c : Dev nD) :
    (V3 m ρ c main_v17 : S1x1024.Idx → EReal) = shapeCast S1x1024 (m ((c : Thread nD τ).loc main_arg4)) shapeCasts_S1024_S1x1024 := by
  have h3 : W3 m ρ c (Proc.devRef .tc main_v17) = W2 m ρ c (Proc.devRef .tc main_v17) := by
    show StableHlo.after hostOps1 (W2 m ρ c) (Proc.devRef .tc main_v17) = _
    after_results <;> rfl
  exact (h3.trans (W2_of_ne m ρ c main_v17 (by decide))).trans (V1_gm m ρ c)

/-- The shift of the normalisation, as a one-row matrix. -/
theorem V3_bt (c : Dev nD) :
    (V3 m ρ c main_v18 : S1x1024.Idx → EReal) = shapeCast S1x1024 (m ((c : Thread nD τ).loc main_arg5)) shapeCasts_S1024_S1x1024 := by
  have h3 : W3 m ρ c (Proc.devRef .tc main_v18) = W2 m ρ c (Proc.devRef .tc main_v18) := by
    show StableHlo.after hostOps1 (W2 m ρ c) (Proc.devRef .tc main_v18) = _
    after_results <;> rfl
  exact (h3.trans (W2_of_ne m ρ c main_v18 (by decide))).trans (V1_bt m ρ c)

/-- The second weight matrix is the argument. -/
theorem V3_w2 (c : Dev nD) :
    (V3 m ρ c main_v15 : S1024x256.Idx → EReal) = m ((c : Thread nD τ).loc main_arg6) := by
  have h3 : W3 m ρ c (Proc.devRef .tc main_v15) = W2 m ρ c (Proc.devRef .tc main_v15) := by
    show StableHlo.after hostOps1 (W2 m ρ c) (Proc.devRef .tc main_v15) = _
    after_results <;> rfl
  exact (h3.trans (W2_of_ne m ρ c main_v15 (by decide))).trans (V1_w2 m ρ c)

/-- The second bias, as a one-row matrix. -/
theorem V3_b2 (c : Dev nD) :
    (V3 m ρ c main_v19 : S1x256.Idx → EReal) = shapeCast S1x256 (m ((c : Thread nD τ).loc main_arg7)) shapeCasts_S256_S1x256 := by
  have h3 : W3 m ρ c (Proc.devRef .tc main_v19) = W2 m ρ c (Proc.devRef .tc main_v19) := by
    show StableHlo.after hostOps1 (W2 m ρ c) (Proc.devRef .tc main_v19) = _
    after_results <;> rfl
  exact (h3.trans (W2_of_ne m ρ c main_v19 (by decide))).trans (V1_b2 m ρ c)

end Cert.KernelIdeal.Entry

end
-- ==== Proof.EntryAgg.lean ====
/-
  The neighbour sums the first grid is entered with.

  Before the first grid the program computes on the host, from the node features `x` (100000 × 256) and the edge list
  `e` (2 × 320000): the source row `e[0, ·]` with a negative entry wrapped by adding 100000, the rows of `x` gathered at
  those sources (320000 × 256), and their sums scattered into a zero array at the target rows `e[1, ·]`.  These are
  the same seventeen operations, in the same order and with the same dimension numbers, as the opening of the
  reference program, whose term for that array is `Cert.ReferenceIdeal.Read.val_main_v13`.  So the array of neighbour
  sums the first grid finds is that term of the launched `x` and `e`: each buffer read after the host operations is
  the operation that wrote it applied to what its operands held, and the composed term is the reference's.
-/
import proofs.«110771_j50397146251358_2_alg».proof.Proof.Gen.KernelIdeal.Frame
import proofs.«110771_j50397146251358_2_alg».proof.Proof.Gen.ReferenceIdeal.Read
import Idealize.ShloMosaic.Lib.StableHlo.Run

set_option maxRecDepth 16384

noncomputable section

namespace Cert.KernelIdeal.EntryAgg

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

set_option maxHeartbeats 400000 in
/-- The array of neighbour sums at the first grid's entry is the reference's scatter-add of the gathered rows, of the
    launched node features and edge list. -/
theorem V1_agg (c : Dev nD) : (V1 m ρ c main_v13 : S100000x256.Idx → EReal)
    = Cert.ReferenceIdeal.Read.val_main_v13 (F := Ideal) (m ((c : Thread nD τ).loc main_arg0))
        (m ((c : Thread nD τ).loc main_arg1)) := by
  show StableHlo.after hostOps0 (W0 m ρ c) (Proc.devRef .tc main_v13) = _
  open Idealize.ShloMosaic.StableHlo in after_results
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst
  rfl

end Cert.KernelIdeal.EntryAgg

end
-- ==== Proof.KernelValue.lean ====
/-
  The idealized kernel's result as the specification's function of its arguments.

  The second grid's result array is, entry by entry, the second linear layer of the normalised hidden values of the
  arrays the grid is entered with.  Those arrays are the neighbour sums, the features, the two weight matrices and the
  four bias / scale / shift vectors as launched (copied or reshaped by the host), and the mean and scale rows the host
  computed from the first grid's column sums: the specification's result with the two-moment variance.
-/
import proofs.«110771_j50397146251358_2_alg».proof.Proof.Moments
import proofs.«110771_j50397146251358_2_alg».proof.Proof.MainGrid
import proofs.«110771_j50397146251358_2_alg».proof.Proof.Entry
import proofs.«110771_j50397146251358_2_alg».proof.Proof.EntryAgg

set_option maxRecDepth 16384

noncomputable section

open scoped BigOperators

namespace Cert.KernelIdeal.KernelValue

open Cert.KernelIdeal Cert.KernelIdeal.Gen Cert.KernelIdeal.Stats Cert.KernelIdeal.Moments Cert.KernelIdeal.MainGrid
open Cert.KernelIdeal.Entry Cert.KernelIdeal.EntryAgg
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The neighbour sums: the reference's own aggregation term of the launched features and edge list. -/
abbrev agg (c : Dev nD) : S100000x256.Idx → EReal :=
  Cert.ReferenceIdeal.Read.val_main_v13 (F := Ideal) (m ((c : Thread nD τ).loc main_arg0)) (m ((c : Thread nD τ).loc main_arg1))

/-- A vector reshaped to one row and read back as a vector is the vector. -/
theorem row_of_vec {n : ℕ} (v : (⟨1, ![n]⟩ : Shape).Idx → EReal) (h : (⟨1, ![n]⟩ : Shape).ShapeCasts ⟨2, ![1, n]⟩) :
    (fun j : (⟨1, ![n]⟩ : Shape).Idx => shapeCast ⟨2, ![1, n]⟩ v h (ix2 (0 : Fin 1) (j 0))) = v :=
  funext fun j => (shapeCast_a_1a_apply v h (0 : Fin 1) (j 0)).trans (congrArg v (eq_ix1 j).symm)

/-- The hidden values the first grid sums are the specification's, of the launched arrays. -/
theorem hidden_eq (c : Dev nD) :
    H m ρ c = Cert.Spec.hid (agg m c) (m ((c : Thread nD τ).loc main_arg0)) (m ((c : Thread nD τ).loc main_arg2))
      (m ((c : Thread nD τ).loc main_arg3)) := by
  unfold H hidAll asVec
  rw [V1_agg, V1_x, V1_w1, V1_b1]
  exact congrArg (Cert.Spec.hid _ _ _) (row_of_vec _ _)

/-- The result array after the run is the specification's result with the two-moment variance. -/
theorem result_eq (c : Dev nD) :
    (W4 m ρ c (Proc.devRef .tc main_v32) : S100000x256.Idx → EReal)
      = Cert.Spec.resultMoments (agg m c) (m ((c : Thread nD τ).loc main_arg0)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine ((W4_arr m ρ c 10).trans (final10 (V3 m ρ) c)).trans ?_
  unfold mainOut Cert.Spec.resultMoments rowVec
  rw [V3_agg, V3_x, V3_w1, V3_b1, V3_gm, V3_bt, V3_w2, V3_b2, V1_agg, V1_x, V1_w1, V1_b1,
    show (fun j => (V3 m ρ c main_v22 : S1x1024.Idx → EReal) (ix2 (0 : Fin 1) j)) = Cert.Spec.mean (H m ρ c) from
      funext fun j => mean_entry m ρ c j,
    show (fun j => (V3 m ρ c main_v31 : S1x1024.Idx → EReal) (ix2 (0 : Fin 1) j))
        = Cert.Spec.invstd (Cert.Spec.varMoments (H m ρ c)) from funext fun j => invstd_entry m ρ c j,
    hidden_eq, row_of_vec, row_of_vec, row_of_vec, row_of_vec]

end Cert.KernelIdeal.KernelValue

end
-- ==== Proof.RefSpec.lean ====
/-
  The reference program computes the specification's function with the centred variance.

  The generated module `Gen/ReferenceIdeal/Read` states the reference program one operation at a time: each
  `val_main_vN` is an array, and `val_main_vN_apply` reads it at one index from its operands.  Read at the index
  `(r, c)` and followed from the result back to the arguments, these say that the result is

    max (Σⱼ A[r,j] · w2[j,c] + b2[c], 0),
    A[r,j] = max ((H[r,j] − μⱼ) · sⱼ · γⱼ + βⱼ, 0),
    sⱼ = rsqrt (vⱼ + eps),   vⱼ = (Σᵣ (H[r,j] − μⱼ)²) / n,   μⱼ = (Σᵣ H[r,j]) / n,
    H[r,j] = Σₖ (a[r,k] + x[r,k]) · w1[k,j] + b1[j],

  where `a` is the array of neighbour sums (`val_main_v13`, kept closed here: it is an argument of the
  specification).  That is `Cert.Spec.resultCentered` term for term.  The only arithmetic used is `0 + s = s` for
  the initial value of the two column sums; every other step reads a broadcast at its source index or names an
  elementwise operation over the extended reals.  The proof goes from the arguments upward: the hidden value, the
  column mean, the column variance, the scale, the activation, the result.
-/
import proofs.«110771_j50397146251358_2_alg».proof.Proof.Gen.ReferenceIdeal.Read
import proofs.«110771_j50397146251358_2_alg».proof.Proof.Spec
import Idealize.ShloMosaic.Lib.ValueIdx
import Idealize.ShloMosaic.PureOps.Ideal.Laws

noncomputable section

open scoped BigOperators

namespace Cert.RefSpec

open Idealize.ShloMosaic Idealize.ShloMosaic.ValueIdx Cert.ReferenceIdeal Cert.ReferenceIdeal.Read

variable (x0 : FVec Ideal S100000x256 .f32) (x1 : IVec S2x320000 32)
  (x2 : FVec Ideal S256x1024 .f32) (x3 x4 x5 : FVec Ideal S1024 .f32)
  (x6 : FVec Ideal S1024x256 .f32) (x7 : FVec Ideal S256 .f32)

/-! ### The hidden value -/

/-- The first bias, broadcast along the rows, read at `(r, j)` is `b1[j]`. -/
theorem bias1_at (r : Fin 100000) (j : Fin 1024) :
    val_main_v17 (F := Ideal) x3 (ix2 r j) = x3 (ix1 j) := by
  rw [val_main_v17_apply, val_main_v16_apply]
  exact congrArg x3 (funext fun a => Fin.ext (by match a with | ⟨0, _⟩ => rfl))

/-- The hidden value at `(r, j)` is `Σₖ (a[r,k] + x[r,k]) · w1[k,j] + b1[j]`. -/
theorem hid_eq (r : Fin 100000) (j : Fin 1024) :
    val_main_v18 (F := Ideal) x0 x1 x2 x3 (ix2 r j)
      = Cert.Spec.hid (val_main_v13 (F := Ideal) x0 x1) x0 x2 x3 r j := by
  rw [val_main_v18_apply, val_main_v15_apply, bias1_at, Ideal.addf_def]
  unfold Cert.Spec.hid
  refine congrArg (fun s => s + x3 (ix1 j)) (Finset.sum_congr rfl fun k _ => ?_)
  have el : lidx_main_v15 (ix2 r j) k = ix2 r k :=
    funext fun a => Fin.ext (by match a with | ⟨0, _⟩ => rfl | ⟨1, _⟩ => rfl)
  have er : ridx_main_v15 (ix2 r j) k = ix2 k j :=
    funext fun a => Fin.ext (by match a with | ⟨0, _⟩ => rfl | ⟨1, _⟩ => rfl)
  rw [el, er, val_main_v14_apply, Ideal.addf_def]

/-! ### The constants -/

/-- The initial value of the column sum of the hidden values is zero. -/
theorem sum_init_mean : val_main_cst_1 (F := Ideal) (Shape.Idx.first Gen.h_S_) = 0 := by
  rw [val_main_cst_1_apply, Ideal.ofBits_def, Ideal.ofBits_zero_f32]

/-- The initial value of the column sum of the squared deviations is zero. -/
theorem sum_init_var : val_main_cst_3 (F := Ideal) (Shape.Idx.first Gen.h_S_) = 0 := by
  rw [val_main_cst_3_apply, Ideal.ofBits_def, Ideal.ofBits_zero_f32]

/-- The divisor of the mean is the specification's number of rows, at every column. -/
theorem nrows_mean_at (i : S1024.Idx) : val_main_v20 (F := Ideal) i = Cert.Spec.nrows := by
  rw [val_main_v20_apply, val_main_cst_2_apply, Ideal.ofBits_def]
  rfl

/-- The divisor of the variance is the specification's number of rows, at every column. -/
theorem nrows_var_at (i : S1024.Idx) : val_main_v27 (F := Ideal) i = Cert.Spec.nrows := by
  rw [val_main_v27_apply, val_main_cst_4_apply, Ideal.ofBits_def]
  rfl

/-- The number added to the variance is the specification's `eps`, at every column. -/
theorem eps_at (i : S1024.Idx) : val_main_v32 (F := Ideal) i = Cert.Spec.eps := by
  rw [val_main_v32_apply, val_main_cst_5_apply, Ideal.ofBits_def]
  rfl

/-- The zero the activation is clipped against. -/
theorem clip1_zero_at (i : S100000x1024.Idx) : val_main_call0_v0 (F := Ideal) i = 0 := by
  rw [val_main_call0_v0_apply, val_main_call0_cst_apply, Ideal.ofBits_def, Ideal.ofBits_zero_f32]

/-- The zero the result is clipped against. -/
theorem clip2_zero_at (i : S100000x256.Idx) : val_main_call1_v0 (F := Ideal) i = 0 := by
  rw [val_main_call1_v0_apply, val_main_call1_cst_apply, Ideal.ofBits_def, Ideal.ofBits_zero_f32]

/-! ### The column statistics -/

/-- The mean of hidden column `j`: `(0 + Σᵣ H[r,j]) / n = (Σᵣ H[r,j]) / n`. -/
theorem mean_eq (j : Fin 1024) :
    val_main_v21 (F := Ideal) x0 x1 x2 x3 (ix1 j)
      = Cert.Spec.mean (Cert.Spec.hid (val_main_v13 (F := Ideal) x0 x1) x0 x2 x3) j := by
  rw [val_main_v21_apply, Ideal.hostDivf_def, val_main_v19_apply, sum_init_mean, zero_add, nrows_mean_at]
  unfold Cert.Spec.mean
  refine congrArg (fun s => Ideal.div s Cert.Spec.nrows) (Finset.sum_congr rfl fun k _ => ?_)
  have e : idx_main_v19 (ix1 j) k = ix2 k j :=
    funext fun a => Fin.ext (by match a with | ⟨0, _⟩ => rfl | ⟨1, _⟩ => rfl)
  rw [e, hid_eq]

/-- The mean broadcast along the rows (the copy the variance subtracts), read at `(r, j)`, is the mean of column `j`. -/
theorem mean_bcast_at (r : Fin 100000) (j : Fin 1024) :
    val_main_v23 (F := Ideal) x0 x1 x2 x3 (ix2 r j) = val_main_v21 (F := Ideal) x0 x1 x2 x3 (ix1 j) := by
  rw [val_main_v23_apply, val_main_v22_apply]
  exact congrArg _ (funext fun a => Fin.ext (by match a with | ⟨0, _⟩ => rfl))

/-- The variance of hidden column `j`: the deviation `H[r,j] − μⱼ` is multiplied by itself, summed over the rows
    from zero, and divided by `n`. -/
theorem var_eq (j : Fin 1024) :
    val_main_v28 (F := Ideal) x0 x1 x2 x3 (ix1 j)
      = Cert.Spec.varCentered (Cert.Spec.hid (val_main_v13 (F := Ideal) x0 x1) x0 x2 x3) j := by
  rw [val_main_v28_apply, Ideal.hostDivf_def, val_main_v26_apply, sum_init_var, zero_add, nrows_var_at]
  unfold Cert.Spec.varCentered
  refine congrArg (fun s => Ideal.div s Cert.Spec.nrows) (Finset.sum_congr rfl fun k _ => ?_)
  have e : idx_main_v26 (ix1 j) k = ix2 k j :=
    funext fun a => Fin.ext (by match a with | ⟨0, _⟩ => rfl | ⟨1, _⟩ => rfl)
  rw [e, val_main_v25_apply, Ideal.mulf_def, val_main_v24_apply, Ideal.subf_def, mean_bcast_at, mean_eq, hid_eq]

/-- The scale of column `j`: the inverse square root of the variance plus `eps`. -/
theorem invstd_eq (j : Fin 1024) :
    val_main_v34 (F := Ideal) x0 x1 x2 x3 (ix1 j)
      = Cert.Spec.invstd (Cert.Spec.varCentered (Cert.Spec.hid (val_main_v13 (F := Ideal) x0 x1) x0 x2 x3)) j := by
  rw [val_main_v34_apply, Ideal.hostUnary_rsqrt_def, val_main_v33_apply, Ideal.addf_def, var_eq, eps_at]
  rfl

/-! ### The activation -/

/-- The mean broadcast along the rows (the copy the normalisation subtracts), read at `(r, j)`. -/
theorem mean_bcast2_at (r : Fin 100000) (j : Fin 1024) :
    val_main_v30 (F := Ideal) x0 x1 x2 x3 (ix2 r j) = val_main_v21 (F := Ideal) x0 x1 x2 x3 (ix1 j) := by
  rw [val_main_v30_apply, val_main_v29_apply]
  exact congrArg _ (funext fun a => Fin.ext (by match a with | ⟨0, _⟩ => rfl))

/-- The scale broadcast along the rows, read at `(r, j)`, is the scale of column `j`. -/
theorem scale_bcast_at (r : Fin 100000) (j : Fin 1024) :
    val_main_v36 (F := Ideal) x0 x1 x2 x3 (ix2 r j) = val_main_v34 (F := Ideal) x0 x1 x2 x3 (ix1 j) := by
  rw [val_main_v36_apply, val_main_v35_apply]
  exact congrArg _ (funext fun a => Fin.ext (by match a with | ⟨0, _⟩ => rfl))

/-- The multiplier `γ` broadcast along the rows, read at `(r, j)`, is `γⱼ`. -/
theorem gamma_at (r : Fin 100000) (j : Fin 1024) :
    val_main_v39 (F := Ideal) x4 (ix2 r j) = x4 (ix1 j) := by
  rw [val_main_v39_apply, val_main_v38_apply]
  exact congrArg x4 (funext fun a => Fin.ext (by match a with | ⟨0, _⟩ => rfl))

/-- The shift `β` broadcast along the rows, read at `(r, j)`, is `βⱼ`. -/
theorem beta_at (r : Fin 100000) (j : Fin 1024) :
    val_main_v42 (F := Ideal) x5 (ix2 r j) = x5 (ix1 j) := by
  rw [val_main_v42_apply, val_main_v41_apply]
  exact congrArg x5 (funext fun a => Fin.ext (by match a with | ⟨0, _⟩ => rfl))

/-- The activation at `(r, j)` is `max ((H[r,j] − μⱼ) · sⱼ · γⱼ + βⱼ, 0)`. -/
theorem act_eq (r : Fin 100000) (j : Fin 1024) :
    val_main_v44 (F := Ideal) x0 x1 x2 x3 x4 x5 (ix2 r j)
      = Cert.Spec.act (Cert.Spec.hid (val_main_v13 (F := Ideal) x0 x1) x0 x2 x3)
          (Cert.Spec.mean (Cert.Spec.hid (val_main_v13 (F := Ideal) x0 x1) x0 x2 x3))
          (Cert.Spec.invstd (Cert.Spec.varCentered (Cert.Spec.hid (val_main_v13 (F := Ideal) x0 x1) x0 x2 x3)))
          x4 x5 r j := by
  rw [val_main_v44_apply, Ideal.maximumf_def, clip1_zero_at, val_main_v43_apply, Ideal.addf_def, beta_at,
    val_main_v40_apply, Ideal.mulf_def, gamma_at, val_main_v37_apply, Ideal.mulf_def, scale_bcast_at, invstd_eq,
    val_main_v31_apply, Ideal.subf_def, mean_bcast2_at, mean_eq, hid_eq]
  rfl

/-! ### The result -/

/-- The second bias, broadcast along the rows, read at `(r, c)` is `b2[c]`. -/
theorem bias2_at (r : Fin 100000) (c : Fin 256) :
    val_main_v47 (F := Ideal) x7 (ix2 r c) = x7 (ix1 c) := by
  rw [val_main_v47_apply, val_main_v46_apply]
  exact congrArg x7 (funext fun a => Fin.ext (by match a with | ⟨0, _⟩ => rfl))

/-- The specification's result read at the index with coordinates `(r, c)`. -/
theorem resultCentered_at (a x : Cert.Spec.SX.Idx → EReal) (w1 : Cert.Spec.SW1.Idx → EReal)
    (b1 gm bt : Cert.Spec.SH.Idx → EReal) (w2 : Cert.Spec.SW2.Idx → EReal) (b2 : Cert.Spec.SO.Idx → EReal)
    (r : Fin 100000) (c : Fin 256) :
    Cert.Spec.resultCentered a x w1 b1 gm bt w2 b2 (ix2 r c)
      = Cert.Spec.outAt (Cert.Spec.act (Cert.Spec.hid a x w1 b1) (Cert.Spec.mean (Cert.Spec.hid a x w1 b1))
          (Cert.Spec.invstd (Cert.Spec.varCentered (Cert.Spec.hid a x w1 b1))) gm bt) w2 b2 r c := rfl

/-- The reference program's result is the specification's function with the centred variance, the neighbour sums
    being the reference program's own. -/
theorem ref_eq :
    val_main_v49 (F := Ideal) x0 x1 x2 x3 x4 x5 x6 x7
      = Cert.Spec.resultCentered (val_main_v13 (F := Ideal) x0 x1) x0 x2 x3 x4 x5 x6 x7 := by
  funext i
  obtain ⟨r, c, rfl⟩ : ∃ (r : Fin 100000) (c : Fin 256), i = ix2 r c := ⟨i 0, i 1, eq_ix2 i⟩
  rw [resultCentered_at, val_main_v49_apply, Ideal.maximumf_def, clip2_zero_at, val_main_v48_apply, Ideal.addf_def,
    bias2_at, val_main_v45_apply]
  unfold Cert.Spec.outAt
  refine congrArg (fun s => max (s + x7 (ix1 c)) 0) (Finset.sum_congr rfl fun k _ => ?_)
  have el : lidx_main_v45 (ix2 r c) k = ix2 r k :=
    funext fun a => Fin.ext (by match a with | ⟨0, _⟩ => rfl | ⟨1, _⟩ => rfl)
  have er : ridx_main_v45 (ix2 r c) k = ix2 k c :=
    funext fun a => Fin.ext (by match a with | ⟨0, _⟩ => rfl | ⟨1, _⟩ => rfl)
  rw [el, er, act_eq]

end Cert.RefSpec

end
-- ==== Proof.LibEReal.lean ====
/-
  Two facts about finiteness on the extended reals, and the float pattern of +∞.

  • `add_sub_cancel_real`: for a REAL number `a` and ANY extended real `q`, `a + (q - a) = q`.  This is the forward
    value of a "straight-through" expression `a + (q - a)`; it fails for infinite `a` (`⊤ + (q - ⊤) = ⊥` for real `q`).
  • `real_of_abs_lt_top`: an extended real whose absolute value `max x (-x)` is below `⊤` is a real number — the reading
    of a test "every entry has absolute value below +∞".
  • `inf_pattern`, `lt_top_of_cmp`: the f32 pattern 0x7F800000 denotes `⊤`, and an ordered less-than comparison against
    it that came out true says the left side is below `⊤`.
-/
import Idealize.ShloMosaic.PureOps.Ideal

noncomputable section

namespace Cert.LibEReal

open Idealize.ShloMosaic

/-- Adding a real number `a` to `q - a` gives `q` back, for EVERY extended real `q`: at `q = ⊤` both sides are `⊤`, at
    `q = ⊥` both are `⊥`, and between them it is the cancellation in the reals. -/
theorem add_sub_cancel_real (a : ℝ) (q : EReal) : (a : EReal) + (q - (a : EReal)) = q := by
  induction q using EReal.rec with
  | bot => rw [EReal.bot_sub, EReal.add_bot]
  | top => rw [EReal.top_sub_coe, EReal.coe_add_top]
  | coe s => rw [← EReal.coe_sub, ← EReal.coe_add]; exact congrArg _ (by ring)

/-- An extended real whose absolute value is below `⊤` is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The f32 pattern of +∞ denotes `⊤`. -/
theorem inf_pattern : Ideal.ofBits .f32 0x7F800000#32 = ⊤ := by simp [Ideal.ofBits, Ideal.ieee]

/-- An ordered less-than test against the pattern of +∞ that is true says the left side is below `⊤`. -/
theorem lt_top_of_cmp (x : EReal) (h : Ideal.cmp .olt x (Ideal.ofBits .f32 0x7F800000#32) = 1#1) : x < ⊤ := by
  rw [inf_pattern] at h
  by_contra hc
  simp [Ideal.cmp, hc] at h

end Cert.LibEReal

end
-- ==== Proof.HidReal.lean ====
/-
  The hidden values are real numbers when every float input is finite.

  The precondition is a conjunction of seven tests, one per float input, each of the form "every entry has absolute
  value below +∞".  An extended real whose absolute value is below `⊤` is a real number, so each test that came out
  true says that every entry of its array is a real number.  Three of the seven are used here: the node features `x`,
  the first weight matrix `w1` and the first bias `b1`.

  The neighbour sums `a` are an accumulating scatter of gathered rows of `x` into an array of zeros: the entry at an
  index is zero plus the finite sum of those gathered entries that land on it.  A gathered entry is an entry of `x`,
  so it is real; zero is real; a real number plus a finite sum of real numbers is real.  Hence every neighbour sum is a
  real number, whatever the integer index table holds.

  The hidden value `Σₖ (a[r,k] + x[r,k]) · w1[k,j] + b1[j]` is then built from real numbers by finitely many sums and
  products, so it is a real number too.
-/
import proofs.«110771_j50397146251358_2_alg».proof.Pre_finite_inputs
import proofs.«110771_j50397146251358_2_alg».proof.Proof.Gen.Pre_finite_inputs
import proofs.«110771_j50397146251358_2_alg».proof.Proof.Gen.ReferenceIdeal.Read
import proofs.«110771_j50397146251358_2_alg».proof.Proof.Spec
import proofs.«110771_j50397146251358_2_alg».proof.Proof.LibRealValued
import proofs.«110771_j50397146251358_2_alg».proof.Proof.LibEReal
import Idealize.ShloMosaic.Lib.ReduceAll

noncomputable section

open scoped BigOperators

namespace Cert.HidReal

open Idealize.ShloMosaic Idealize.ShloMosaic.ValueIdx

/-- The shape of a scalar has exactly one index. -/
instance subsingleton_scalar_idx : Subsingleton Cert.Pre_finite_inputs.S_.Idx :=
  ⟨fun _ _ => funext fun d => d.elim0⟩

/-- One test of the precondition read back: if "every entry of `x` has absolute value below the pattern of +∞" came
    out true, then every entry of `x` is a real number. -/
theorem real_of_all_abs_lt_inf {s : Shape} {axes : List (Fin s.rank)} (x : FVec Ideal s .f32)
    (bc : Cert.Pre_finite_inputs.S_.BroadcastsInDim s (![] : Fin 0 → Fin s.rank))
    (h : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] bc (constant (F := Ideal) Cert.Pre_finite_inputs.S_ .f32 0x7F800000#32)))
          (constantI Cert.Pre_finite_inputs.S_ 1 1#1) h hu j = 1#1)
    (i : s.Idx) : ∃ v : ℝ, x i = (v : EReal) := by
  have hi := Host.reduce_andi_all _ _ h hu j e i
  exact Cert.LibEReal.real_of_abs_lt_top (x i) (Cert.LibEReal.lt_top_of_cmp _ hi)

/-- A real number plus a finite sum of real numbers is a real number. -/
theorem add_sum_real {ι : Type*} (s : Finset ι) (a : EReal) (u : ι → EReal) (ha : ∃ v : ℝ, a = (v : EReal))
    (hu : ∀ j, ∃ v : ℝ, u j = (v : EReal)) : ∃ v : ℝ, a + ∑ j ∈ s, u j = (v : EReal) := by
  obtain ⟨a', rfl⟩ := ha
  choose g hg using hu
  refine ⟨a' + ∑ j ∈ s, g j, ?_⟩
  rw [EReal.coe_add, Cert.Pool.coe_sum]
  simp only [hg]

/-- An accumulating scatter of real updates into an array of real numbers has real entries: an entry is the old entry
    plus the finite sum of the updates that land on it. -/
theorem scatterAdd_real {s si su : Shape} {w : Nat} (d : ScatterDims s si su) (x : FVec Ideal s .f32) (idx : IVec si w)
    (upd : FVec Ideal su .f32) (hx : ∀ i, ∃ v : ℝ, x i = (v : EReal)) (hu : ∀ j, ∃ v : ℝ, upd j = (v : EReal))
    (i : s.Idx) : ∃ v : ℝ, Host.scatterAdd d x idx upd i = (v : EReal) :=
  add_sum_real _ _ _ (hx i) hu

variable [Cert.Pre_finite_inputs.Facts] [Cert.ReferenceIdeal.Facts]

/-- Under the precondition every entry of the node features, of the first weight matrix and of the first bias is a
    real number. -/
theorem inputs_real
    (x0 : FVec Ideal Cert.ReferenceIdeal.S100000x256 .f32) (x1 : IVec Cert.ReferenceIdeal.S2x320000 32)
    (x2 : FVec Ideal Cert.ReferenceIdeal.S256x1024 .f32) (x3 x4 x5 : FVec Ideal Cert.ReferenceIdeal.S1024 .f32)
    (x6 : FVec Ideal Cert.ReferenceIdeal.S1024x256 .f32) (x7 : FVec Ideal Cert.ReferenceIdeal.S256 .f32)
    (hpre : Cert.Pre_finite_inputs.fn (F := Ideal) x0 x1 x2 x3 x4 x5 x6 x7 = fun _ => 1#1) :
    (∀ i, ∃ v : ℝ, x0 i = (v : EReal)) ∧ (∀ i, ∃ v : ℝ, x2 i = (v : EReal)) ∧ (∀ i, ∃ v : ℝ, x3 i = (v : EReal)) := by
  have h := congrFun hpre ix0
  dsimp only [Cert.Pre_finite_inputs.fn, Cert.Pre_finite_inputs.fn_part1, Idealize.ShloMosaic.andi] at h
  simp only [IntOp.andi_eq_one] at h
  obtain ⟨⟨⟨⟨⟨⟨h0, h2⟩, h3⟩, -⟩, -⟩, -⟩, -⟩ := h
  exact ⟨real_of_all_abs_lt_inf x0 _ _ _ _ h0, real_of_all_abs_lt_inf x2 _ _ _ _ h2,
    real_of_all_abs_lt_inf x3 _ _ _ _ h3⟩

/-- Every neighbour sum is a real number when every node feature is: it is zero plus a finite sum of gathered node
    features. -/
theorem neighbour_sums_real
    (x0 : FVec Ideal Cert.ReferenceIdeal.S100000x256 .f32) (x1 : IVec Cert.ReferenceIdeal.S2x320000 32)
    (hx0 : ∀ i, ∃ v : ℝ, x0 i = (v : EReal)) (i : Cert.ReferenceIdeal.S100000x256.Idx) :
    ∃ v : ℝ, Cert.ReferenceIdeal.Read.val_main_v13 (F := Ideal) x0 x1 i = (v : EReal) := by
  unfold Cert.ReferenceIdeal.Read.val_main_v13 Cert.ReferenceIdeal.Read.val_main_v10
  refine scatterAdd_real _ _ _ _ (fun i' => ⟨0, ?_⟩) (fun j => hx0 _) i
  rw [Cert.ReferenceIdeal.Read.val_main_v11_apply, Cert.ReferenceIdeal.Read.val_main_cst_apply, Ideal.ofBits_def,
    Ideal.ofBits_zero_f32]
  exact EReal.coe_zero.symm

/-- A hidden value built from real neighbour sums, node features, weights and biases is a real number. -/
theorem hid_real_of_real (a x : Cert.Spec.SX.Idx → EReal) (w1 : Cert.Spec.SW1.Idx → EReal)
    (b1 : Cert.Spec.SH.Idx → EReal) (ha : ∀ i, ∃ v : ℝ, a i = (v : EReal)) (hx : ∀ i, ∃ v : ℝ, x i = (v : EReal))
    (hw : ∀ i, ∃ v : ℝ, w1 i = (v : EReal)) (hb : ∀ i, ∃ v : ℝ, b1 i = (v : EReal))
    (r : Fin 100000) (j : Fin 1024) : ∃ v : ℝ, Cert.Spec.hid a x w1 b1 r j = (v : EReal) := by
  choose fa hfa using ha
  choose fx hfx using hx
  choose fw hfw using hw
  choose fb hfb using hb
  refine ⟨(∑ k : Fin 256, (fa (ix2 r k) + fx (ix2 r k)) * fw (ix2 k j)) + fb (ix1 j), ?_⟩
  unfold Cert.Spec.hid
  rw [EReal.coe_add, Cert.Pool.coe_sum]
  simp only [hfa, hfx, hfw, hfb, EReal.coe_add, EReal.coe_mul]

/-- Under the precondition "every float input is finite" every hidden value of the specification, taken at the
    neighbour sums the reference program computes, is a real number. -/
theorem hid_real
    (x0 : FVec Ideal Cert.ReferenceIdeal.S100000x256 .f32) (x1 : IVec Cert.ReferenceIdeal.S2x320000 32)
    (x2 : FVec Ideal Cert.ReferenceIdeal.S256x1024 .f32) (x3 x4 x5 : FVec Ideal Cert.ReferenceIdeal.S1024 .f32)
    (x6 : FVec Ideal Cert.ReferenceIdeal.S1024x256 .f32) (x7 : FVec Ideal Cert.ReferenceIdeal.S256 .f32)
    (hpre : Cert.Pre_finite_inputs.fn (F := Ideal) x0 x1 x2 x3 x4 x5 x6 x7 = fun _ => 1#1) :
    ∀ (r : Fin 100000) (j : Fin 1024), ∃ v : ℝ,
      Cert.Spec.hid (Cert.ReferenceIdeal.Read.val_main_v13 (F := Ideal) x0 x1) x0 x2 x3 r j = (v : EReal) := by
  obtain ⟨h0, h2, h3⟩ := inputs_real x0 x1 x2 x3 x4 x5 x6 x7 hpre
  exact hid_real_of_real _ x0 x2 x3 (neighbour_sums_real x0 x1 h0) h0 h2 h3

end Cert.HidReal

end
-- ==== Proof.lean ====
/-
  One graph layer — neighbour sums, a linear layer, normalisation of each hidden column by its mean and variance
  over all rows, scale and shift, a clip at zero, a second linear layer and a second clip — computed by a kernel in
  two grids (column sums and column sums of squares first, then the normalised layer tile by tile) and by a plain
  array program.

  Over the extended reals the two compute the same array whenever the float inputs are finite.  Every operation is
  the same on both sides except the variance of a hidden column: the kernel takes the mean of the squares minus the
  squared mean, clipped below at zero; the array program takes the mean of the squared deviations.  The hidden values
  are real numbers when the inputs are finite (a neighbour sum is a finite sum of features), and for real numbers the
  two variances agree: `Σ (h − μ)² = Σ h² − n μ²` when `n μ = Σ h`, and the common value is not negative.  Sums over
  the 100000 rows taken tile by tile, fifty tiles of 2000, are the same sums; a change of float format is the identity.

  The three frames are the programs' runs with the value forgotten; the kernel's idealization rewrote nothing.
-/
import proofs.«110771_j50397146251358_2_alg».proof.Defs
import proofs.«110771_j50397146251358_2_alg».proof.Proof.Gen.Kernel
import proofs.«110771_j50397146251358_2_alg».proof.Proof.Gen.Kernel.Skeleton
import proofs.«110771_j50397146251358_2_alg».proof.Proof.Gen.Kernel.Launch
import proofs.«110771_j50397146251358_2_alg».proof.Proof.Gen.Kernel.Points
import proofs.«110771_j50397146251358_2_alg».proof.Proof.Gen.Kernel.Frame
import proofs.«110771_j50397146251358_2_alg».proof.Proof.Gen.KernelIdeal
import proofs.«110771_j50397146251358_2_alg».proof.Proof.Gen.KernelIdeal.Skeleton
import proofs.«110771_j50397146251358_2_alg».proof.Proof.Gen.KernelIdeal.Launch
import proofs.«110771_j50397146251358_2_alg».proof.Proof.Gen.KernelIdeal.Points
import proofs.«110771_j50397146251358_2_alg».proof.Proof.Gen.KernelIdeal.Frame
import proofs.«110771_j50397146251358_2_alg».proof.Proof.Gen.ReferenceIdeal
import proofs.«110771_j50397146251358_2_alg».proof.Proof.Gen.ReferenceIdeal.Run
import proofs.«110771_j50397146251358_2_alg».proof.Proof.Gen.ReferenceIdeal.Read
import proofs.«110771_j50397146251358_2_alg».proof.Proof.Gen.Pre_finite_inputs
import proofs.«110771_j50397146251358_2_alg».proof.Proof.KernelRun
import proofs.«110771_j50397146251358_2_alg».proof.Proof.KernelValue
import proofs.«110771_j50397146251358_2_alg».proof.Proof.RefSpec
import proofs.«110771_j50397146251358_2_alg».proof.Proof.HidReal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's result of the launched arrays: the kernel with the two-moment
    variance, the array program with the centred one, and for finite inputs the two are one array. -/
theorem algebraic : Cert.algebraic_KernelIdeal_ReferenceIdeal := by
  intro m ρ m' ρ' hpre hagree
  refine ⟨fun c => Cert.Spec.resultMoments (Cert.KernelIdeal.KernelValue.agg m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v49_eq, Cert.RefSpec.ref_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]
    exact (Cert.Spec.resultMoments_eq_resultCentered _ _ _ _ _ _ _ _
      (Cert.HidReal.hid_real _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
